-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S_ : Shape := ⟨0, ![]⟩

class Facts : Prop where
  bcast_S_S1x29 : S_.BroadcastsInDim S1x29 (![] : Fin 0 → Fin S1x29.rank)
  reducesTo_S1x29_S_d0_1 : S1x29.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S256x29 : S_.BroadcastsInDim S256x29 (![] : Fin 0 → Fin S256x29.rank)
  reducesTo_S256x29_S_d0_1 : S256x29.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg18 : FVec F S3 .f32) (main_arg19 : FVec F S3x128 .f32) (main_arg20 : FVec F S3 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3 .f32 := Host.absf main_arg18
  let main_cst_34 : FVec F S_ .f32 := constant S_ .f32 0x7F800000#32
  let main_v90 : FVec F S3 .f32 := broadcastInDim S3 ![] bcast_S_S3 main_cst_34
  let main_v91 : IVec S3 1 := cmpf .olt main_v89 main_v90
  let main_c_35 : IVec S_ 1 := constantI S_ 1 1#1
  let main_v92 : IVec S_ 1 := (fun x v => Host.reduce IntOp.andi x v reducesTo_S3_S_d0 h_S_) main_v91 main_c_35
  let main_v93 : IVec S_ 1 := andi main_v88 main_v92
  let main_v94 : FVec F S3x128 .f32 := Host.absf main_arg19
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S3 .f32 := Host.absf main_arg20
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S1x128 .f32 := Host.absf main_arg15
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S3x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512x128 .f32 := Host.absf main_arg11
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg13
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S256 .f32) (main_arg5 : FVec F S256x256 .f32) (main_arg6 : FVec F S256 .f32) (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v13 : IVec S_ 1) (main_v16 : IVec S256x29 1) : IVec S_ 1 :=
  let main_c_5 : IVec S_ 1 := constantI S_ 1 1#1
  let main_v17 : IVec S_ 1 := (fun x v => Host.reduce IntOp.andi x v reducesTo_S256x29_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1x29 .f32) (main_arg1 : FVec F S1x128 .f32) (main_arg2 : FVec F S1x128 .f32) (main_arg3 : FVec F S256x29 .f32) (main_arg4 : FVec F S256 .f32) (main_arg5 : FVec F S256x256 .f32) (main_arg6 : FVec F S256 .f32) (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) : IVec S_ 1 :=
  let main_v0 : FVec F S1x29 .f32 := Host.absf main_arg0
  let main_cst : FVec F S_ .f32 := constant S_ .f32 0x7F800000#32
  let main_v1 : FVec F S1x29 .f32 := broadcastInDim S1x29 ![] bcast_S_S1x29 main_cst
  let main_v2 : IVec S1x29 1 := cmpf .olt main_v0 main_v1
  let main_c : IVec S_ 1 := constantI S_ 1 1#1
  let main_v3 : IVec S_ 1 := (fun x v => Host.reduce IntOp.andi x v reducesTo_S1x29_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S256x29 .f32 := Host.absf main_arg3
  let main_cst_4 : FVec F S_ .f32 := constant S_ .f32 0x7F800000#32
  let main_v15 : FVec F S256x29 .f32 := broadcastInDim S256x29 ![] bcast_S_S256x29 main_cst_4
  let main_v16 : IVec S256x29 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S1x1 : Shape := ⟨2, ![1, 1]⟩
abbrev S3x1 : Shape := ⟨2, ![3, 1]⟩
abbrev S1x256 : Shape := ⟨2, ![1, 256]⟩
abbrev S1x512 : Shape := ⟨2, ![1, 512]⟩
abbrev S_ : Shape := ⟨0, ![]⟩

abbrev nBuf : Space → Nat
  | .hbm => 30
  | .vmem => 24
  | .smem => 0
  | _ => 0

abbrev bufTy : (tb : Table) → Fin (tcTables nBuf tb) → BufTy
  | .hbm, ⟨0, _⟩ => ⟨S1x29, .f32⟩
  | .hbm, ⟨1, _⟩ => ⟨S1x128, .f32⟩
  | .hbm, ⟨2, _⟩ => ⟨S1x128, .f32⟩
  | .hbm, ⟨3, _⟩ => ⟨S256x29, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S512x128, .f32⟩
  | .hbm, ⟨12, _⟩ => ⟨S512, .f32⟩
  | .hbm, ⟨13, _⟩ => ⟨S512x128, .f32⟩
  | .hbm, ⟨14, _⟩ => ⟨S512, .f32⟩
  | .hbm, ⟨15, _⟩ => ⟨S1x128, .f32⟩
  | .hbm, ⟨16, _⟩ => ⟨S1, .f32⟩
  | .hbm, ⟨17, _⟩ => ⟨S3x128, .f32⟩
  | .hbm, ⟨18, _⟩ => ⟨S3, .f32⟩
  | .hbm, ⟨19, _⟩ => ⟨S3x128, .f32⟩
  | .hbm, ⟨20, _⟩ => ⟨S3, .f32⟩
  | .hbm, ⟨21, _⟩ => ⟨S1x1, .f32⟩
  | .hbm, ⟨22, _⟩ => ⟨S3x1, .f32⟩
  | .hbm, ⟨23, _⟩ => ⟨S3x1, .f32⟩
  | .hbm, ⟨24, _⟩ => ⟨S1x1, .f32⟩
  | .hbm, ⟨25, _⟩ => ⟨S3x1, .f32⟩
  | .hbm, ⟨26, _⟩ => ⟨S3x1, .f32⟩
  | .hbm, ⟨27, _⟩ => ⟨S_, .f32⟩
  | .hbm, ⟨28, _⟩ => ⟨S3, .f32⟩
  | .hbm, ⟨29, _⟩ => ⟨S3, .f32⟩
  | .local _ .vmem, ⟨0, _⟩ => ⟨S1x29, .f32⟩
  | .local _ .vmem, ⟨1, _⟩ => ⟨S1x128, .f32⟩
  | .local _ .vmem, ⟨2, _⟩ => ⟨S1x128, .f32⟩
  | .local _ .vmem, ⟨3, _⟩ => ⟨S256x29, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S128x256, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S512x128, .f32⟩
  | .local _ .vmem, ⟨12, _⟩ => ⟨S512, .f32⟩
  | .local _ .vmem, ⟨13, _⟩ => ⟨S512x128, .f32⟩
  | .local _ .vmem, ⟨14, _⟩ => ⟨S512, .f32⟩
  | .local _ .vmem, ⟨15, _⟩ => ⟨S1x128, .f32⟩
  | .local _ .vmem, ⟨16, _⟩ => ⟨S1x1, .f32⟩
  | .local _ .vmem, ⟨17, _⟩ => ⟨S3x128, .f32⟩
  | .local _ .vmem, ⟨18, _⟩ => ⟨S3x1, .f32⟩
  | .local _ .vmem, ⟨19, _⟩ => ⟨S3x128, .f32⟩
  | .local _ .vmem, ⟨20, _⟩ => ⟨S3x1, .f32⟩
  | .local _ .vmem, ⟨21, _⟩ => ⟨S1x1, .f32⟩
  | .local _ .vmem, ⟨22, _⟩ => ⟨S3x1, .f32⟩
  | .local _ .vmem, ⟨23, _⟩ => ⟨S3x1, .f32⟩
  | _, _ => ⟨S1x29, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x29 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x29 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

class Facts₀ : Prop where
  shapeCasts_S1_S1x1 : S1.ShapeCasts S1x1
  shapeCasts_S3_S3x1 : S3.ShapeCasts S3x1
  inb_S1x29_S1x29_0_0 : ∀ a, (![0, 0] : Fin 2 → Nat) a + S1x29.size a ≤ S1x29.size a
  h_S1x29 : 0 < S1x29.numel
  inb_S1x128_S1x128_0_0 : ∀ a, (![0, 0] : Fin 2 → Nat) a + S1x128.size a ≤ S1x128.size a
  h_S1x128 : 0 < S1x128.numel
  inb_S256x29_S256x29_0_0 : ∀ a, (![0, 0] : Fin 2 → Nat) a + S256x29.size a ≤ S256x29.size a
  h_S256x29 : 0 < S256x29.numel
  inb_S256_S256_0 : ∀ a, (![0] : Fin 1 → Nat) a + S256.size a ≤ S256.size a
  h_S256 : 0 < S256.numel
  shapeCasts_S256_S1x256 : S256.ShapeCasts S1x256
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  slices_S1x512_o0_0_S1x128 : S1x512.Slices ![0, 0] S1x128
  slices_S1x512_o0_128_S1x128 : S1x512.Slices ![0, 128] S1x128
  slices_S1x512_o0_256_S1x128 : S1x512.Slices ![0, 256] S1x128
  slices_S1x512_o0_384_S1x128 : S1x512.Slices ![0, 384] S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1x128_S1 : S1x128.Reduces [1] S1
  inb_S3x128_S3x128_0_0 : ∀ a, (![0, 0] : Fin 2 → Nat) a + S3x128.size a ≤ S3x128.size a
  h_S3x128 : 0 < S3x128.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S1x128_S3x128 : S1x128.Broadcasts S3x128
  reduces_S3x128_S3 : S3x128.Reduces [1] S3
  shapeCasts_S1x1_S_ : S1x1.ShapeCasts S_
  shapeCasts_S3x1_S3 : S3x1.ShapeCasts S3
  dot_S1x29_S256x29_S1x256_1_1_0_0_n_n_wf : DotDims.WF S1x29 S256x29 S1x256 [1] [1] [0] [0] [] []
  dot_S1x256_S256x256_S1x256_1_1_0_0_n_n_wf : DotDims.WF S1x256 S256x256 S1x256 [1] [1] [0] [0] [] []
  dot_S1x256_S128x256_S1x128_1_1_0_0_n_n_wf : DotDims.WF S1x256 S128x256 S1x128 [1] [1] [0] [0] [] []
  dot_S1x128_S128x128_S1x128_1_1_0_0_n_n_wf : DotDims.WF S1x128 S128x128 S1x128 [1] [1] [0] [0] [] []
  dot_S1x128_S512x128_S1x512_1_1_0_0_n_n_wf : DotDims.WF S1x128 S512x128 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x29.size a ≤ S1x29.size a
  hwx0_0 : ∀ i : grid0.Coords, EltTy.bits .f32 = 32 ∨ (Rect.block (s := S1x29) S1x29.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x29.size a ≤ S256x29.size a
  hwx0_3 : ∀ i : grid0.Coords, EltTy.bits .f32 = 32 ∨ (Rect.block (s := S256x29) S256x29.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S512x128.size a
  hwx0_11 : ∀ i : grid0.Coords, EltTy.bits .f32 = 32 ∨ (Rect.block (s := S512x128) S512x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S512x128.size a
  hwx0_13 : ∀ i : grid0.Coords, EltTy.bits .f32 = 32 ∨ (Rect.block (s := S512x128) S512x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x128.size a ≤ S3x128.size a
  hwx0_17 : ∀ i : grid0.Coords, EltTy.bits .f32 = 32 ∨ (Rect.block (s := S3x128) S3x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3x1.size a ≤ S3x1.size a
  hwx0_18 : ∀ i : grid0.Coords, EltTy.bits .f32 = 32 ∨ (Rect.block (s := S3x1) S3x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x128.size a ≤ S3x128.size a
  hwx0_19 : ∀ i : grid0.Coords, EltTy.bits .f32 = 32 ∨ (Rect.block (s := S3x128) S3x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S3x1.size a ≤ S3x1.size a
  hwx0_20 : ∀ i : grid0.Coords, EltTy.bits .f32 = 32 ∨ (Rect.block (s := S3x1) S3x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S3x1.size a ≤ S3x1.size a
  hwx0_22 : ∀ i : grid0.Coords, EltTy.bits .f32 = 32 ∨ (Rect.block (s := S3x1) S3x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S3x1.size a ≤ S3x1.size a
  hwx0_23 : ∀ i : grid0.Coords, EltTy.bits .f32 = 32 ∨ (Rect.block (s := S3x1) S3x1.size (cc0_transform_23 i) (hinb0_23 i)).WholeWords (EltTy.packing .f32)

variable [Facts₀]

def dot_S1x29_S256x29_S1x256_1_1_0_0_n_n : DotDims S1x29 S256x29 S1x256 where
  lhsContracting := [1]
  rhsContracting := [1]
  lhsNonContracting := [0]
  rhsNonContracting := [0]
  lhsBatch := []
  rhsBatch := []
  wf := dot_S1x29_S256x29_S1x256_1_1_0_0_n_n_wf
def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf
def dot_S1x256_S128x256_S1x128_1_1_0_0_n_n : DotDims S1x256 S128x256 S1x128 where
  lhsContracting := [1]
  rhsContracting := [1]
  lhsNonContracting := [0]
  rhsNonContracting := [0]
  lhsBatch := []
  rhsBatch := []
  wf := dot_S1x256_S128x256_S1x128_1_1_0_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S1x128_S512x128_S1x512_1_1_0_0_n_n : DotDims S1x128 S512x128 S1x512 where
  lhsContracting := [1]
  rhsContracting := [1]
  lhsNonContracting := [0]
  rhsNonContracting := [0]
  lhsBatch := []
  rhsBatch := []
  wf := dot_S1x128_S512x128_S1x512_1_1_0_0_n_n_wf

abbrev win0_0 : Pipeline.Window sig grid0 :=
  Pipeline.Window.ofSpec (Memref.whole main_arg0) S1x29.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x29.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S3x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v1) S3x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S3x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v2) S3x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v3_0) S1x1.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v3_1) S3x1.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v3_2) S3x1.size cc0_transform_23 reads0_23 true true 1 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S29x256 : Shape := ⟨2, ![29, 256]⟩
abbrev S1x256 : Shape := ⟨2, ![1, 256]⟩
abbrev S_ : Shape := ⟨0, ![]⟩
abbrev S256x128 : Shape := ⟨2, ![256, 128]⟩
abbrev S128x512 : Shape := ⟨2, ![128, 512]⟩
abbrev S1x512 : Shape := ⟨2, ![1, 512]⟩
abbrev S128x1 : Shape := ⟨2, ![128, 1]⟩
abbrev S1x1 : Shape := ⟨2, ![1, 1]⟩
abbrev S128x3 : Shape := ⟨2, ![128, 3]⟩
abbrev S1x3 : Shape := ⟨2, ![1, 3]⟩

abbrev nBuf : Space → Nat
  | .hbm => 128
  | .vmem => 0
  | .smem => 0
  | _ => 0

abbrev bufTy : (tb : Table) → Fin (tcTables nBuf tb) → BufTy
  | .hbm, ⟨0, _⟩ => ⟨S1x29, .f32⟩
  | .hbm, ⟨1, _⟩ => ⟨S1x128, .f32⟩
  | .hbm, ⟨2, _⟩ => ⟨S1x128, .f32⟩
  | .hbm, ⟨3, _⟩ => ⟨S256x29, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S512x128, .f32⟩
  | .hbm, ⟨12, _⟩ => ⟨S512, .f32⟩
  | .hbm, ⟨13, _⟩ => ⟨S512x128, .f32⟩
  | .hbm, ⟨14, _⟩ => ⟨S512, .f32⟩
  | .hbm, ⟨15, _⟩ => ⟨S1x128, .f32⟩
  | .hbm, ⟨16, _⟩ => ⟨S1, .f32⟩
  | .hbm, ⟨17, _⟩ => ⟨S3x128, .f32⟩
  | .hbm, ⟨18, _⟩ => ⟨S3, .f32⟩
  | .hbm, ⟨19, _⟩ => ⟨S3x128, .f32⟩
  | .hbm, ⟨20, _⟩ => ⟨S3, .f32⟩
  | .hbm, ⟨21, _⟩ => ⟨S29x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .i1⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S256x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .i1⟩
  | .hbm, ⟨39, _⟩ => ⟨S_, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S256x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .i1⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S128x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .i1⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S128x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S128x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S_, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S128x1, .f32⟩
  | .hbm, ⟨109, _⟩ => ⟨S1x1, .f32⟩
  | .hbm, ⟨110, _⟩ => ⟨S1x1, .f32⟩
  | .hbm, ⟨111, _⟩ => ⟨S1x1, .f32⟩
  | .hbm, ⟨112, _⟩ => ⟨S_, .f32⟩
  | .hbm, ⟨113, _⟩ => ⟨S128x3, .f32⟩
  | .hbm, ⟨114, _⟩ => ⟨S1x3, .f32⟩
  | .hbm, ⟨115, _⟩ => ⟨S1x3, .f32⟩
  | .hbm, ⟨116, _⟩ => ⟨S1x3, .f32⟩
  | .hbm, ⟨117, _⟩ => ⟨S1x3, .f32⟩
  | .hbm, ⟨118, _⟩ => ⟨S_, .f32⟩
  | .hbm, ⟨119, _⟩ => ⟨S1x3, .f32⟩
  | .hbm, ⟨120, _⟩ => ⟨S1x3, .f32⟩
  | .hbm, ⟨121, _⟩ => ⟨S1x3, .f32⟩
  | .hbm, ⟨122, _⟩ => ⟨S3, .f32⟩
  | .hbm, ⟨123, _⟩ => ⟨S128x3, .f32⟩
  | .hbm, ⟨124, _⟩ => ⟨S1x3, .f32⟩
  | .hbm, ⟨125, _⟩ => ⟨S1x3, .f32⟩
  | .hbm, ⟨126, _⟩ => ⟨S1x3, .f32⟩
  | .hbm, ⟨127, _⟩ => ⟨S3, .f32⟩
  | _, _ => ⟨S1x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_call4_v2 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  transposes_S256x29_S29x256_1_0 : S256x29.Transposes [1, 0] S29x256
  bcast_S256_S1x256_1 : S256.BroadcastsInDim S1x256 (![1] : Fin 1 → Fin S1x256.rank)
  bcast_S_S1x256 : S_.BroadcastsInDim S1x256 (![] : Fin 0 → Fin S1x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S_S1x128 : S_.BroadcastsInDim S1x128 (![] : Fin 0 → Fin S1x128.rank)
  transposes_S128x128_S128x128_1_0 : S128x128.Transposes [1, 0] S128x128
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  transposes_S1x128_S128x1_1_0 : S1x128.Transposes [1, 0] S128x1
  bcast_S1_S1x1_1 : S1.BroadcastsInDim S1x1 (![1] : Fin 1 → Fin S1x1.rank)
  shapeCasts_S1x1_S_ : S1x1.ShapeCasts S_
  transposes_S3x128_S128x3_1_0 : S3x128.Transposes [1, 0] S128x3
  bcast_S3_S1x3_1 : S3.BroadcastsInDim S1x3 (![1] : Fin 1 → Fin S1x3.rank)
  bcast_S_S1x3 : S_.BroadcastsInDim S1x3 (![] : Fin 0 → Fin S1x3.rank)
  shapeCasts_S1x3_S3 : S1x3.ShapeCasts S3
  dot_S1x29_S29x256_S1x256_1_0_0_1_n_n_wf : DotDims.WF S1x29 S29x256 S1x256 [1] [0] [0] [1] [] []
  dot_S1x256_S256x256_S1x256_1_0_0_1_n_n_wf : DotDims.WF S1x256 S256x256 S1x256 [1] [0] [0] [1] [] []
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S1x128_S128x512_S1x512_1_0_0_1_n_n_wf : DotDims.WF S1x128 S128x512 S1x512 [1] [0] [0] [1] [] []
  dot_S1x128_S128x1_S1x1_1_0_0_1_n_n_wf : DotDims.WF S1x128 S128x1 S1x1 [1] [0] [0] [1] [] []
  dot_S1x128_S128x3_S1x3_1_0_0_1_n_n_wf : DotDims.WF S1x128 S128x3 S1x3 [1] [0] [0] [1] [] []

variable [Facts₀]

def dot_S1x29_S29x256_S1x256_1_0_0_1_n_n : DotDims S1x29 S29x256 S1x256 where
  lhsContracting := [1]
  rhsContracting := [0]
  lhsNonContracting := [0]
  rhsNonContracting := [1]
  lhsBatch := []
  rhsBatch := []
  wf := dot_S1x29_S29x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S1x128_S128x3_S1x3_1_0_0_1_n_n : DotDims S1x128 S128x3 S1x3 where
  lhsContracting := [1]
  rhsContracting := [0]
  lhsNonContracting := [0]
  rhsNonContracting := [1]
  lhsBatch := []
  rhsBatch := []
  wf := dot_S1x128_S128x3_S1x3_1_0_0_1_n_n_wf

class Facts : Prop extends Facts₀ where

variable [Facts]
-- ==== Proof.KernelRun.lean ====
/- The idealized kernel's run, read as values: what each of the three result buffers of @main holds after every
   weakly fair execution, as the body's payloads applied to the argument arrays, and the argument arrays unchanged.

   The kernel is one region over a grid of one point. Every window's block is its whole array (every block index
   is zero on every axis), so an input window's block is the array itself, and the one point's write-back covers
   each output array. Windows 16, 18 and 20 stage arrays that reshapes before the region wrote (a vector given a
   trailing unit axis); the three results are reshapes, after the region, of the three output arrays (that unit
   axis, and for the first result both axes, dropped). -/
import proofs.«141714_j38903813767521_2_alg».proof.Proof.Gen.KernelIdeal.Frame
import Idealize.ShloMosaic.Lib.Pipeline.Value

noncomputable section

namespace Cert.KernelIdeal.RunValue

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The payloads at the argument arrays -/

/-- The hidden row (1 x 128) the body computes from the arrays of windows 0 to 14: argument 0's row through four affine
    layers (weights and biases: arguments 3 to 10), each followed by x if x > 0 and a fixed small multiple of x otherwise;
    then one gated step against the rows in arguments 1 and 2: four gate rows from that result (arguments 11, 12) plus
    argument 1's row (arguments 13, 14), a cell row from argument 2 and three of the gates, and the fourth gate times
    the cell row's tanh. -/
def hidden (c : Dev nD) : FVec F S1x128 .f32 :=
  k0_pay4 (m ((c.tc : Thread nD τ).loc main_arg1)) (m ((c.tc : Thread nD τ).loc main_arg2)) (k0_pay3 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- The value head's block (1 x 1): the hidden row times argument 15's row, summed over the 128 lanes, plus argument 16
    (a vector of one entry given a trailing unit axis). -/
def valueBlock (c : Dev nD) : FVec F S1x1 .f32 :=
  k0_pay5 (m ((c.tc : Thread nD τ).loc main_arg1)) (m ((c.tc : Thread nD τ).loc main_arg2)) (k0_pay3 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (shapeCast S1x1 (m ((c.tc : Thread nD τ).loc main_arg16)) shapeCasts_S1_S1x1)

/-- The first actor head's block (3 x 1): the hidden row times each of argument 17's three rows, summed over the 128
    lanes, plus argument 18 (three entries given a trailing unit axis), then x / (1 + |x|). -/
def actorBlock (c : Dev nD) : FVec F S3x1 .f32 :=
  k0_pay1 (hidden m c) (m ((c.tc : Thread nD τ).loc main_arg17)) (shapeCast S3x1 (m ((c.tc : Thread nD τ).loc main_arg18)) shapeCasts_S3_S3x1)

/-- The second actor head's block (3 x 1): the same sums against argument 19's rows, plus argument 20, and nothing after. -/
def actor2Block (c : Dev nD) : FVec F S3x1 .f32 :=
  k0_pay2 (hidden m c) (m ((c.tc : Thread nD τ).loc main_arg19)) (shapeCast S3x1 (m ((c.tc : Thread nD τ).loc main_arg20)) shapeCasts_S3_S3x1)

/-! ## The arrays the reshapes before the region wrote -/

/-- Window 16's array as the region finds it: argument 16 with a trailing unit axis. -/
theorem V_main_v0 (c : Dev nD) :
    V m c main_v0 = shapeCast S1x1 (m ((c.tc : Thread nD τ).loc main_arg16)) shapeCasts_S1_S1x1 := by
  show StableHlo.after hostOps0 (fun b => m (c, b)) (Proc.devRef .tc main_v0) = _
  after_results
  rfl

/-- Window 18's array as the region finds it: argument 18 with a trailing unit axis. -/
theorem V_main_v1 (c : Dev nD) :
    V m c main_v1 = shapeCast S3x1 (m ((c.tc : Thread nD τ).loc main_arg18)) shapeCasts_S3_S3x1 := by
  show StableHlo.after hostOps0 (fun b => m (c, b)) (Proc.devRef .tc main_v1) = _
  after_results
  rfl

/-- Window 20's array as the region finds it: argument 20 with a trailing unit axis. -/
theorem V_main_v2 (c : Dev nD) :
    V m c main_v2 = shapeCast S3x1 (m ((c.tc : Thread nD τ).loc main_arg20)) shapeCasts_S3_S3x1 := by
  show StableHlo.after hostOps0 (fun b => m (c, b)) (Proc.devRef .tc main_v2) = _
  after_results
  rfl

/-! ## Every input block is its whole array

A block's coordinate in its array is, on each axis, the block index times the block's size plus the coordinate inside
the block; every block index here is zero, so the block read at an index is the array read at that index. -/

theorem hz1 : (![0] : Fin 1 → Nat) = fun _ => 0 := funext fun a => by fin_cases a <;> rfl
theorem hz2 : (![0, 0] : Fin 2 → Nat) = fun _ => 0 := funext fun a => by fin_cases a <;> rfl

/-- Window 0's block index is zero on every axis at every point. -/
theorem idx0 : ∀ t : Fin cfg0.N, win0_0.index t (0 : Fin 2) = 0 ∧ win0_0.index t (1 : Fin 2) = 0 :=
  (by decide +kernel : ∀ t : Fin grid0.N, _)

/-- Window 0's block at any point is argument 0, whole. -/
theorem blk0 (c : Dev nD) (t : Fin cfg0.N) : iblk m c 0 t = m ((c.tc : Thread nD τ).loc main_arg0) := by
  refine Eq.trans ?_ (V_main_arg0 m c)
  funext j
  show V m c main_arg0 (((cfg0.win 0).blk t).view.emb j) = V m c main_arg0 j
  have e : ((cfg0.win 0).blk t).view.emb j = j := by
    funext a; apply Fin.ext
    obtain ⟨e0, e1⟩ := idx0 t
    match a with
    | ⟨0, _⟩ => show win0_0.index t (0 : Fin 2) * 1 + 1 * (j 0).val = (j 0).val; omega
    | ⟨1, _⟩ => show win0_0.index t (1 : Fin 2) * 29 + 1 * (j 1).val = (j 1).val; omega
  rw [e]

/-- Window 1's block index is zero on every axis at every point. -/
theorem idx1 : ∀ t : Fin cfg0.N, win0_1.index t (0 : Fin 2) = 0 ∧ win0_1.index t (1 : Fin 2) = 0 :=
  (by decide +kernel : ∀ t : Fin grid0.N, _)

/-- Window 1's block at any point is argument 1, whole. -/
theorem blk1 (c : Dev nD) (t : Fin cfg0.N) : iblk m c 1 t = m ((c.tc : Thread nD τ).loc main_arg1) := by
  refine Eq.trans ?_ (V_main_arg1 m c)
  funext j
  show V m c main_arg1 (((cfg0.win 1).blk t).view.emb j) = V m c main_arg1 j
  have e : ((cfg0.win 1).blk t).view.emb j = j := by
    funext a; apply Fin.ext
    obtain ⟨e0, e1⟩ := idx1 t
    match a with
    | ⟨0, _⟩ => show win0_1.index t (0 : Fin 2) * 1 + 1 * (j 0).val = (j 0).val; omega
    | ⟨1, _⟩ => show win0_1.index t (1 : Fin 2) * 128 + 1 * (j 1).val = (j 1).val; omega
  rw [e]

/-- Window 2's block index is zero on every axis at every point. -/
theorem idx2 : ∀ t : Fin cfg0.N, win0_2.index t (0 : Fin 2) = 0 ∧ win0_2.index t (1 : Fin 2) = 0 :=
  (by decide +kernel : ∀ t : Fin grid0.N, _)

/-- Window 2's block at any point is argument 2, whole. -/
theorem blk2 (c : Dev nD) (t : Fin cfg0.N) : iblk m c 2 t = m ((c.tc : Thread nD τ).loc main_arg2) := by
  refine Eq.trans ?_ (V_main_arg2 m c)
  funext j
  show V m c main_arg2 (((cfg0.win 2).blk t).view.emb j) = V m c main_arg2 j
  have e : ((cfg0.win 2).blk t).view.emb j = j := by
    funext a; apply Fin.ext
    obtain ⟨e0, e1⟩ := idx2 t
    match a with
    | ⟨0, _⟩ => show win0_2.index t (0 : Fin 2) * 1 + 1 * (j 0).val = (j 0).val; omega
    | ⟨1, _⟩ => show win0_2.index t (1 : Fin 2) * 128 + 1 * (j 1).val = (j 1).val; omega
  rw [e]

/-- Window 3's block index is zero on every axis at every point. -/
theorem idx3 : ∀ t : Fin cfg0.N, win0_3.index t (0 : Fin 2) = 0 ∧ win0_3.index t (1 : Fin 2) = 0 :=
  (by decide +kernel : ∀ t : Fin grid0.N, _)

/-- Window 3's block at any point is argument 3, whole. -/
theorem blk3 (c : Dev nD) (t : Fin cfg0.N) : iblk m c 3 t = m ((c.tc : Thread nD τ).loc main_arg3) := by
  refine Eq.trans ?_ (V_main_arg3 m c)
  funext j
  show V m c main_arg3 (((cfg0.win 3).blk t).view.emb j) = V m c main_arg3 j
  have e : ((cfg0.win 3).blk t).view.emb j = j := by
    funext a; apply Fin.ext
    obtain ⟨e0, e1⟩ := idx3 t
    match a with
    | ⟨0, _⟩ => show win0_3.index t (0 : Fin 2) * 256 + 1 * (j 0).val = (j 0).val; omega
    | ⟨1, _⟩ => show win0_3.index t (1 : Fin 2) * 29 + 1 * (j 1).val = (j 1).val; omega
  rw [e]

/-- Window 4's block index is zero on every axis at every point. -/
theorem idx4 : ∀ t : Fin cfg0.N, win0_4.index t (0 : Fin 1) = 0 :=
  (by decide +kernel : ∀ t : Fin grid0.N, _)

/-- Window 4's block at any point is argument 4, whole. -/
theorem blk4 (c : Dev nD) (t : Fin cfg0.N) : iblk m c 4 t = m ((c.tc : Thread nD τ).loc main_arg4) := by
  refine Eq.trans ?_ (V_main_arg4 m c)
  funext j
  show V m c main_arg4 (((cfg0.win 4).blk t).view.emb j) = V m c main_arg4 j
  have e : ((cfg0.win 4).blk t).view.emb j = j := by
    funext a; apply Fin.ext
    have e0 := idx4 t
    match a with
    | ⟨0, _⟩ => show win0_4.index t (0 : Fin 1) * 256 + 1 * (j 0).val = (j 0).val; omega
  rw [e]

/-- Window 5's block index is zero on every axis at every point. -/
theorem idx5 : ∀ t : Fin cfg0.N, win0_5.index t (0 : Fin 2) = 0 ∧ win0_5.index t (1 : Fin 2) = 0 :=
  (by decide +kernel : ∀ t : Fin grid0.N, _)

/-- Window 5's block at any point is argument 5, whole. -/
theorem blk5 (c : Dev nD) (t : Fin cfg0.N) : iblk m c 5 t = m ((c.tc : Thread nD τ).loc main_arg5) := by
  refine Eq.trans ?_ (V_main_arg5 m c)
  funext j
  show V m c main_arg5 (((cfg0.win 5).blk t).view.emb j) = V m c main_arg5 j
  have e : ((cfg0.win 5).blk t).view.emb j = j := by
    funext a; apply Fin.ext
    obtain ⟨e0, e1⟩ := idx5 t
    match a with
    | ⟨0, _⟩ => show win0_5.index t (0 : Fin 2) * 256 + 1 * (j 0).val = (j 0).val; omega
    | ⟨1, _⟩ => show win0_5.index t (1 : Fin 2) * 256 + 1 * (j 1).val = (j 1).val; omega
  rw [e]

/-- Window 6's block index is zero on every axis at every point. -/
theorem idx6 : ∀ t : Fin cfg0.N, win0_6.index t (0 : Fin 1) = 0 :=
  (by decide +kernel : ∀ t : Fin grid0.N, _)

/-- Window 6's block at any point is argument 6, whole. -/
theorem blk6 (c : Dev nD) (t : Fin cfg0.N) : iblk m c 6 t = m ((c.tc : Thread nD τ).loc main_arg6) := by
  refine Eq.trans ?_ (V_main_arg6 m c)
  funext j
  show V m c main_arg6 (((cfg0.win 6).blk t).view.emb j) = V m c main_arg6 j
  have e : ((cfg0.win 6).blk t).view.emb j = j := by
    funext a; apply Fin.ext
    have e0 := idx6 t
    match a with
    | ⟨0, _⟩ => show win0_6.index t (0 : Fin 1) * 256 + 1 * (j 0).val = (j 0).val; omega
  rw [e]

/-- Window 7's block index is zero on every axis at every point. -/
theorem idx7 : ∀ t : Fin cfg0.N, win0_7.index t (0 : Fin 2) = 0 ∧ win0_7.index t (1 : Fin 2) = 0 :=
  (by decide +kernel : ∀ t : Fin grid0.N, _)

/-- Window 7's block at any point is argument 7, whole. -/
theorem blk7 (c : Dev nD) (t : Fin cfg0.N) : iblk m c 7 t = m ((c.tc : Thread nD τ).loc main_arg7) := by
  refine Eq.trans ?_ (V_main_arg7 m c)
  funext j
  show V m c main_arg7 (((cfg0.win 7).blk t).view.emb j) = V m c main_arg7 j
  have e : ((cfg0.win 7).blk t).view.emb j = j := by
    funext a; apply Fin.ext
    obtain ⟨e0, e1⟩ := idx7 t
    match a with
    | ⟨0, _⟩ => show win0_7.index t (0 : Fin 2) * 128 + 1 * (j 0).val = (j 0).val; omega
    | ⟨1, _⟩ => show win0_7.index t (1 : Fin 2) * 256 + 1 * (j 1).val = (j 1).val; omega
  rw [e]

/-- Window 8's block index is zero on every axis at every point. -/
theorem idx8 : ∀ t : Fin cfg0.N, win0_8.index t (0 : Fin 1) = 0 :=
  (by decide +kernel : ∀ t : Fin grid0.N, _)

/-- Window 8's block at any point is argument 8, whole. -/
theorem blk8 (c : Dev nD) (t : Fin cfg0.N) : iblk m c 8 t = m ((c.tc : Thread nD τ).loc main_arg8) := by
  refine Eq.trans ?_ (V_main_arg8 m c)
  funext j
  show V m c main_arg8 (((cfg0.win 8).blk t).view.emb j) = V m c main_arg8 j
  have e : ((cfg0.win 8).blk t).view.emb j = j := by
    funext a; apply Fin.ext
    have e0 := idx8 t
    match a with
    | ⟨0, _⟩ => show win0_8.index t (0 : Fin 1) * 128 + 1 * (j 0).val = (j 0).val; omega
  rw [e]

/-- Window 9's block index is zero on every axis at every point. -/
theorem idx9 : ∀ t : Fin cfg0.N, win0_9.index t (0 : Fin 2) = 0 ∧ win0_9.index t (1 : Fin 2) = 0 :=
  (by decide +kernel : ∀ t : Fin grid0.N, _)

/-- Window 9's block at any point is argument 9, whole. -/
theorem blk9 (c : Dev nD) (t : Fin cfg0.N) : iblk m c 9 t = m ((c.tc : Thread nD τ).loc main_arg9) := by
  refine Eq.trans ?_ (V_main_arg9 m c)
  funext j
  show V m c main_arg9 (((cfg0.win 9).blk t).view.emb j) = V m c main_arg9 j
  have e : ((cfg0.win 9).blk t).view.emb j = j := by
    funext a; apply Fin.ext
    obtain ⟨e0, e1⟩ := idx9 t
    match a with
    | ⟨0, _⟩ => show win0_9.index t (0 : Fin 2) * 128 + 1 * (j 0).val = (j 0).val; omega
    | ⟨1, _⟩ => show win0_9.index t (1 : Fin 2) * 128 + 1 * (j 1).val = (j 1).val; omega
  rw [e]

/-- Window 10's block index is zero on every axis at every point. -/
theorem idx10 : ∀ t : Fin cfg0.N, win0_10.index t (0 : Fin 1) = 0 :=
  (by decide +kernel : ∀ t : Fin grid0.N, _)

/-- Window 10's block at any point is argument 10, whole. -/
theorem blk10 (c : Dev nD) (t : Fin cfg0.N) : iblk m c 10 t = m ((c.tc : Thread nD τ).loc main_arg10) := by
  refine Eq.trans ?_ (V_main_arg10 m c)
  funext j
  show V m c main_arg10 (((cfg0.win 10).blk t).view.emb j) = V m c main_arg10 j
  have e : ((cfg0.win 10).blk t).view.emb j = j := by
    funext a; apply Fin.ext
    have e0 := idx10 t
    match a with
    | ⟨0, _⟩ => show win0_10.index t (0 : Fin 1) * 128 + 1 * (j 0).val = (j 0).val; omega
  rw [e]

/-- Window 11's block index is zero on every axis at every point. -/
theorem idx11 : ∀ t : Fin cfg0.N, win0_11.index t (0 : Fin 2) = 0 ∧ win0_11.index t (1 : Fin 2) = 0 :=
  (by decide +kernel : ∀ t : Fin grid0.N, _)

/-- Window 11's block at any point is argument 11, whole. -/
theorem blk11 (c : Dev nD) (t : Fin cfg0.N) : iblk m c 11 t = m ((c.tc : Thread nD τ).loc main_arg11) := by
  refine Eq.trans ?_ (V_main_arg11 m c)
  funext j
  show V m c main_arg11 (((cfg0.win 11).blk t).view.emb j) = V m c main_arg11 j
  have e : ((cfg0.win 11).blk t).view.emb j = j := by
    funext a; apply Fin.ext
    obtain ⟨e0, e1⟩ := idx11 t
    match a with
    | ⟨0, _⟩ => show win0_11.index t (0 : Fin 2) * 512 + 1 * (j 0).val = (j 0).val; omega
    | ⟨1, _⟩ => show win0_11.index t (1 : Fin 2) * 128 + 1 * (j 1).val = (j 1).val; omega
  rw [e]

/-- Window 12's block index is zero on every axis at every point. -/
theorem idx12 : ∀ t : Fin cfg0.N, win0_12.index t (0 : Fin 1) = 0 :=
  (by decide +kernel : ∀ t : Fin grid0.N, _)

/-- Window 12's block at any point is argument 12, whole. -/
theorem blk12 (c : Dev nD) (t : Fin cfg0.N) : iblk m c 12 t = m ((c.tc : Thread nD τ).loc main_arg12) := by
  refine Eq.trans ?_ (V_main_arg12 m c)
  funext j
  show V m c main_arg12 (((cfg0.win 12).blk t).view.emb j) = V m c main_arg12 j
  have e : ((cfg0.win 12).blk t).view.emb j = j := by
    funext a; apply Fin.ext
    have e0 := idx12 t
    match a with
    | ⟨0, _⟩ => show win0_12.index t (0 : Fin 1) * 512 + 1 * (j 0).val = (j 0).val; omega
  rw [e]

/-- Window 13's block index is zero on every axis at every point. -/
theorem idx13 : ∀ t : Fin cfg0.N, win0_13.index t (0 : Fin 2) = 0 ∧ win0_13.index t (1 : Fin 2) = 0 :=
  (by decide +kernel : ∀ t : Fin grid0.N, _)

/-- Window 13's block at any point is argument 13, whole. -/
theorem blk13 (c : Dev nD) (t : Fin cfg0.N) : iblk m c 13 t = m ((c.tc : Thread nD τ).loc main_arg13) := by
  refine Eq.trans ?_ (V_main_arg13 m c)
  funext j
  show V m c main_arg13 (((cfg0.win 13).blk t).view.emb j) = V m c main_arg13 j
  have e : ((cfg0.win 13).blk t).view.emb j = j := by
    funext a; apply Fin.ext
    obtain ⟨e0, e1⟩ := idx13 t
    match a with
    | ⟨0, _⟩ => show win0_13.index t (0 : Fin 2) * 512 + 1 * (j 0).val = (j 0).val; omega
    | ⟨1, _⟩ => show win0_13.index t (1 : Fin 2) * 128 + 1 * (j 1).val = (j 1).val; omega
  rw [e]

/-- Window 14's block index is zero on every axis at every point. -/
theorem idx14 : ∀ t : Fin cfg0.N, win0_14.index t (0 : Fin 1) = 0 :=
  (by decide +kernel : ∀ t : Fin grid0.N, _)

/-- Window 14's block at any point is argument 14, whole. -/
theorem blk14 (c : Dev nD) (t : Fin cfg0.N) : iblk m c 14 t = m ((c.tc : Thread nD τ).loc main_arg14) := by
  refine Eq.trans ?_ (V_main_arg14 m c)
  funext j
  show V m c main_arg14 (((cfg0.win 14).blk t).view.emb j) = V m c main_arg14 j
  have e : ((cfg0.win 14).blk t).view.emb j = j := by
    funext a; apply Fin.ext
    have e0 := idx14 t
    match a with
    | ⟨0, _⟩ => show win0_14.index t (0 : Fin 1) * 512 + 1 * (j 0).val = (j 0).val; omega
  rw [e]

/-- Window 15's block index is zero on every axis at every point. -/
theorem idx15 : ∀ t : Fin cfg0.N, win0_15.index t (0 : Fin 2) = 0 ∧ win0_15.index t (1 : Fin 2) = 0 :=
  (by decide +kernel : ∀ t : Fin grid0.N, _)

/-- Window 15's block at any point is argument 15, whole. -/
theorem blk15 (c : Dev nD) (t : Fin cfg0.N) : iblk m c 15 t = m ((c.tc : Thread nD τ).loc main_arg15) := by
  refine Eq.trans ?_ (V_main_arg15 m c)
  funext j
  show V m c main_arg15 (((cfg0.win 15).blk t).view.emb j) = V m c main_arg15 j
  have e : ((cfg0.win 15).blk t).view.emb j = j := by
    funext a; apply Fin.ext
    obtain ⟨e0, e1⟩ := idx15 t
    match a with
    | ⟨0, _⟩ => show win0_15.index t (0 : Fin 2) * 1 + 1 * (j 0).val = (j 0).val; omega
    | ⟨1, _⟩ => show win0_15.index t (1 : Fin 2) * 128 + 1 * (j 1).val = (j 1).val; omega
  rw [e]

/-- Window 16's block index is zero on every axis at every point. -/
theorem idx16 : ∀ t : Fin cfg0.N, win0_16.index t (0 : Fin 2) = 0 ∧ win0_16.index t (1 : Fin 2) = 0 :=
  (by decide +kernel : ∀ t : Fin grid0.N, _)

/-- Window 16's block at any point is argument 16 with a trailing unit axis, whole. -/
theorem blk16 (c : Dev nD) (t : Fin cfg0.N) : iblk m c 16 t = shapeCast S1x1 (m ((c.tc : Thread nD τ).loc main_arg16)) shapeCasts_S1_S1x1 := by
  refine Eq.trans ?_ (V_main_v0 m c)
  funext j
  show V m c main_v0 (((cfg0.win 16).blk t).view.emb j) = V m c main_v0 j
  have e : ((cfg0.win 16).blk t).view.emb j = j := by
    funext a; apply Fin.ext
    obtain ⟨e0, e1⟩ := idx16 t
    match a with
    | ⟨0, _⟩ => show win0_16.index t (0 : Fin 2) * 1 + 1 * (j 0).val = (j 0).val; omega
    | ⟨1, _⟩ => show win0_16.index t (1 : Fin 2) * 1 + 1 * (j 1).val = (j 1).val; omega
  rw [e]

/-- Window 17's block index is zero on every axis at every point. -/
theorem idx17 : ∀ t : Fin cfg0.N, win0_17.index t (0 : Fin 2) = 0 ∧ win0_17.index t (1 : Fin 2) = 0 :=
  (by decide +kernel : ∀ t : Fin grid0.N, _)

/-- Window 17's block at any point is argument 17, whole. -/
theorem blk17 (c : Dev nD) (t : Fin cfg0.N) : iblk m c 17 t = m ((c.tc : Thread nD τ).loc main_arg17) := by
  refine Eq.trans ?_ (V_main_arg17 m c)
  funext j
  show V m c main_arg17 (((cfg0.win 17).blk t).view.emb j) = V m c main_arg17 j
  have e : ((cfg0.win 17).blk t).view.emb j = j := by
    funext a; apply Fin.ext
    obtain ⟨e0, e1⟩ := idx17 t
    match a with
    | ⟨0, _⟩ => show win0_17.index t (0 : Fin 2) * 3 + 1 * (j 0).val = (j 0).val; omega
    | ⟨1, _⟩ => show win0_17.index t (1 : Fin 2) * 128 + 1 * (j 1).val = (j 1).val; omega
  rw [e]

/-- Window 18's block index is zero on every axis at every point. -/
theorem idx18 : ∀ t : Fin cfg0.N, win0_18.index t (0 : Fin 2) = 0 ∧ win0_18.index t (1 : Fin 2) = 0 :=
  (by decide +kernel : ∀ t : Fin grid0.N, _)

/-- Window 18's block at any point is argument 18 with a trailing unit axis, whole. -/
theorem blk18 (c : Dev nD) (t : Fin cfg0.N) : iblk m c 18 t = shapeCast S3x1 (m ((c.tc : Thread nD τ).loc main_arg18)) shapeCasts_S3_S3x1 := by
  refine Eq.trans ?_ (V_main_v1 m c)
  funext j
  show V m c main_v1 (((cfg0.win 18).blk t).view.emb j) = V m c main_v1 j
  have e : ((cfg0.win 18).blk t).view.emb j = j := by
    funext a; apply Fin.ext
    obtain ⟨e0, e1⟩ := idx18 t
    match a with
    | ⟨0, _⟩ => show win0_18.index t (0 : Fin 2) * 3 + 1 * (j 0).val = (j 0).val; omega
    | ⟨1, _⟩ => show win0_18.index t (1 : Fin 2) * 1 + 1 * (j 1).val = (j 1).val; omega
  rw [e]

/-- Window 19's block index is zero on every axis at every point. -/
theorem idx19 : ∀ t : Fin cfg0.N, win0_19.index t (0 : Fin 2) = 0 ∧ win0_19.index t (1 : Fin 2) = 0 :=
  (by decide +kernel : ∀ t : Fin grid0.N, _)

/-- Window 19's block at any point is argument 19, whole. -/
theorem blk19 (c : Dev nD) (t : Fin cfg0.N) : iblk m c 19 t = m ((c.tc : Thread nD τ).loc main_arg19) := by
  refine Eq.trans ?_ (V_main_arg19 m c)
  funext j
  show V m c main_arg19 (((cfg0.win 19).blk t).view.emb j) = V m c main_arg19 j
  have e : ((cfg0.win 19).blk t).view.emb j = j := by
    funext a; apply Fin.ext
    obtain ⟨e0, e1⟩ := idx19 t
    match a with
    | ⟨0, _⟩ => show win0_19.index t (0 : Fin 2) * 3 + 1 * (j 0).val = (j 0).val; omega
    | ⟨1, _⟩ => show win0_19.index t (1 : Fin 2) * 128 + 1 * (j 1).val = (j 1).val; omega
  rw [e]

/-- Window 20's block index is zero on every axis at every point. -/
theorem idx20 : ∀ t : Fin cfg0.N, win0_20.index t (0 : Fin 2) = 0 ∧ win0_20.index t (1 : Fin 2) = 0 :=
  (by decide +kernel : ∀ t : Fin grid0.N, _)

/-- Window 20's block at any point is argument 20 with a trailing unit axis, whole. -/
theorem blk20 (c : Dev nD) (t : Fin cfg0.N) : iblk m c 20 t = shapeCast S3x1 (m ((c.tc : Thread nD τ).loc main_arg20)) shapeCasts_S3_S3x1 := by
  refine Eq.trans ?_ (V_main_v2 m c)
  funext j
  show V m c main_v2 (((cfg0.win 20).blk t).view.emb j) = V m c main_v2 j
  have e : ((cfg0.win 20).blk t).view.emb j = j := by
    funext a; apply Fin.ext
    obtain ⟨e0, e1⟩ := idx20 t
    match a with
    | ⟨0, _⟩ => show win0_20.index t (0 : Fin 2) * 3 + 1 * (j 0).val = (j 0).val; omega
    | ⟨1, _⟩ => show win0_20.index t (1 : Fin 2) * 1 + 1 * (j 1).val = (j 1).val; omega
  rw [e]

/-! ## What the body leaves in each output window

Each output window's buffer is written by one store through the whole-buffer rectangle, of a payload of loads through
whole-buffer rectangles: the buffer holds that payload of the loaded blocks. -/

/-- Window 21's buffer after the body is its one store's payload of the input blocks. -/
theorem out21_payload (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1x1 .f32) (x17 : Vec F S3x128 .f32) (x18 : Vec F S3x1 .f32) (x19 : Vec F S3x128 .f32) (x20 : Vec F S3x1 .f32) :
    out0_21 x0 x1 x2 x3 x4 x5 x6 x7 x8 x9 x10 x11 x12 x13 x14 x15 x16 x17 x18 x19 x20 = k0_pay5 x1 x2 (k0_pay3 x0 x3 x4 x5 x6 x7 x8) x9 x10 x11 x12 x13 x14 x15 x16 := by
  unfold out0_21
  rw [View.canon_unit_zero hz2]
  simp only [View.ld_unit_zero (S := S1x29) hz2, View.ld_unit_zero (S := S1x128) hz2, View.ld_unit_zero (S := S256x29) hz2, View.ld_unit_zero (S := S256) hz1, View.ld_unit_zero (S := S256x256) hz2, View.ld_unit_zero (S := S128x256) hz2, View.ld_unit_zero (S := S128) hz1, View.ld_unit_zero (S := S128x128) hz2, View.ld_unit_zero (S := S512x128) hz2, View.ld_unit_zero (S := S512) hz1, View.ld_unit_zero (S := S1x1) hz2, View.ld_unit_zero (S := S3x128) hz2, View.ld_unit_zero (S := S3x1) hz2]

/-- At every point the body leaves the value head's block in window 21's buffer. -/
theorem after21_eq (c : Dev nD) (t : Fin cfg0.N) : (dats m 0 c).after 21 t = valueBlock m c := by
  rw [after0_21, out21_payload, blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t]
  rfl

/-- Window 22's buffer after the body is its one store's payload of the input blocks. -/
theorem out22_payload (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1x1 .f32) (x17 : Vec F S3x128 .f32) (x18 : Vec F S3x1 .f32) (x19 : Vec F S3x128 .f32) (x20 : Vec F S3x1 .f32) :
    out0_22 x0 x1 x2 x3 x4 x5 x6 x7 x8 x9 x10 x11 x12 x13 x14 x15 x16 x17 x18 x19 x20 = k0_pay1 (k0_pay4 x1 x2 (k0_pay3 x0 x3 x4 x5 x6 x7 x8) x9 x10 x11 x12 x13 x14) x17 x18 := by
  unfold out0_22
  rw [View.canon_unit_zero hz2]
  simp only [View.ld_unit_zero (S := S1x29) hz2, View.ld_unit_zero (S := S1x128) hz2, View.ld_unit_zero (S := S256x29) hz2, View.ld_unit_zero (S := S256) hz1, View.ld_unit_zero (S := S256x256) hz2, View.ld_unit_zero (S := S128x256) hz2, View.ld_unit_zero (S := S128) hz1, View.ld_unit_zero (S := S128x128) hz2, View.ld_unit_zero (S := S512x128) hz2, View.ld_unit_zero (S := S512) hz1, View.ld_unit_zero (S := S1x1) hz2, View.ld_unit_zero (S := S3x128) hz2, View.ld_unit_zero (S := S3x1) hz2]

/-- At every point the body leaves the first actor head's block in window 22's buffer. -/
theorem after22_eq (c : Dev nD) (t : Fin cfg0.N) : (dats m 0 c).after 22 t = actorBlock m c := by
  rw [after0_22, out22_payload, blk0 m c t, blk1 m c t, blk2 m c t, blk3 m c t, blk4 m c t, blk5 m c t, blk6 m c t, blk7 m c t, blk8 m c t, blk9 m c t, blk10 m c t, blk11 m c t, blk12 m c t, blk13 m c t, blk14 m c t, blk17 m c t, blk18 m c t]
  rfl

/-- Window 23's buffer after the body is its one store's payload of the input blocks. -/
theorem out23_payload (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1x1 .f32) (x17 : Vec F S3x128 .f32) (x18 : Vec F S3x1 .f32) (x19 : Vec F S3x128 .f32) (x20 : Vec F S3x1 .f32) :
    out0_23 x0 x1 x2 x3 x4 x5 x6 x7 x8 x9 x10 x11 x12 x13 x14 x15 x16 x17 x18 x19 x20 = k0_pay2 (k0_pay4 x1 x2 (k0_pay3 x0 x3 x4 x5 x6 x7 x8) x9 x10 x11 x12 x13 x14) x19 x20 := by
  unfold out0_23
  rw [View.canon_unit_zero hz2]
  simp only [View.ld_unit_zero (S := S1x29) hz2, View.ld_unit_zero (S := S1x128) hz2, View.ld_unit_zero (S := S256x29) hz2, View.ld_unit_zero (S := S256) hz1, View.ld_unit_zero (S := S256x256) hz2, View.ld_unit_zero (S := S128x256) hz2, View.ld_unit_zero (S := S128) hz1, View.ld_unit_zero (S := S128x128) hz2, View.ld_unit_zero (S := S512x128) hz2, View.ld_unit_zero (S := S512) hz1, View.ld_unit_zero (S := S1x1) hz2, View.ld_unit_zero (S := S3x128) hz2, View.ld_unit_zero (S := S3x1) hz2]

/-- At every point the body leaves the second actor head's block in window 23's buffer. -/
theorem after23_eq (c : Dev nD) (t : Fin cfg0.N) : (dats m 0 c).after 23 t = actor2Block m c := by
  rw [after0_23, out23_payload, blk0 m c t, blk1 m c t, blk2 m c t, blk3 m c t, blk4 m c t, blk5 m c t, blk6 m c t, blk7 m c t, blk8 m c t, blk9 m c t, blk10 m c t, blk11 m c t, blk12 m c t, blk13 m c t, blk14 m c t, blk19 m c t, blk20 m c t]
  rfl

/-! ## The output arrays after the run

What the one point writes back to an output window is the block, read through the window's (whole-array) block; that
block covers every index of the array, so the array ends holding the block. -/

/-- Window 21's block index is zero on every axis at every point. -/
theorem idx21 : ∀ t : Fin cfg0.N, win0_21.index t (0 : Fin 2) = 0 ∧ win0_21.index t (1 : Fin 2) = 0 :=
  (by decide +kernel : ∀ t : Fin grid0.N, _)

/-- What point `t` writes back to window 21's array is the value head's block read through the point's block. -/
theorem flushed21_eq (c : Dev nD) (t : Fin cfg0.N) :
    (dats m 0 c).flushed 21 t = ((cfg0.win 21).blk t).view.read (Elt F) (valueBlock m c) := by
  show (cfg0.win 21).cut (grid0.coords t) ((dats m 0 c).after 21 t) = _
  rw [after21_eq]
  funext j
  show valueBlock m c j = valueBlock m c (((cfg0.win 21).blk t).view.emb j)
  have e : ((cfg0.win 21).blk t).view.emb j = j := by
    funext a; apply Fin.ext
    obtain ⟨e0, e1⟩ := idx21 t
    match a with
    | ⟨0, _⟩ => show win0_21.index t (0 : Fin 2) * 1 + 1 * (j 0).val = (j 0).val; omega
    | ⟨1, _⟩ => show win0_21.index t (1 : Fin 2) * 1 + 1 * (j 1).val = (j 1).val; omega
  rw [e]

/-- An index of window 21's array is in point `t`'s block iff each coordinate is in the block's range on its axis. -/
theorem mem_blk21 (t : Fin cfg0.N) (i : S1x1.Idx) :
    i ∈ ((cfg0.win 21).blk t).view.set ↔ ∀ a : Fin 2, win0_21.index t a * S1x1.size a ≤ (i a).val ∧ (i a).val < win0_21.index t a * S1x1.size a + S1x1.size a := by
  show i ∈ ((View.whole main_v3_0).slice (win0_21.rect t)).set ↔ _
  rw [View.set_slice_whole, Rect.mem_set_unit]
  exact Iff.rfl

/-- The one point's block covers every index of window 21's array, and the point writes back. -/
theorem cover21 (i : S1x1.Idx) :
    ∃ t : Fin cfg0.N, (cfg0.win 21).flush t = true ∧ i ∈ ((cfg0.win 21).blk t).view.set := by
  refine ⟨t0_0, flush0_21 t0_0, ?_⟩
  rw [mem_blk21]
  obtain ⟨e0, e1⟩ := idx21 t0_0
  have h0 : (i 0).val < 1 := (i 0).isLt
  have h1 : (i 1).val < 1 := (i 1).isLt
  intro a
  match a with
  | ⟨0, _⟩ => show win0_21.index t0_0 (0 : Fin 2) * 1 ≤ (i 0).val ∧ (i 0).val < win0_21.index t0_0 (0 : Fin 2) * 1 + 1; omega
  | ⟨1, _⟩ => show win0_21.index t0_0 (1 : Fin 2) * 1 ≤ (i 1).val ∧ (i 1).val < win0_21.index t0_0 (1 : Fin 2) * 1 + 1; omega

/-- Window 21's array after the run is the value head's block. -/
theorem final21 (c : Dev nD) : (dats m 0 c).arrAt 21 cfg0.N = valueBlock m c :=
  (dats m 0 c).arrAt_eq_of_cover 21 _ (fun t _ => flushed21_eq m c t) cover21

/-- Window 22's block index is zero on every axis at every point. -/
theorem idx22 : ∀ t : Fin cfg0.N, win0_22.index t (0 : Fin 2) = 0 ∧ win0_22.index t (1 : Fin 2) = 0 :=
  (by decide +kernel : ∀ t : Fin grid0.N, _)

/-- What point `t` writes back to window 22's array is the first actor head's block read through the point's block. -/
theorem flushed22_eq (c : Dev nD) (t : Fin cfg0.N) :
    (dats m 0 c).flushed 22 t = ((cfg0.win 22).blk t).view.read (Elt F) (actorBlock m c) := by
  show (cfg0.win 22).cut (grid0.coords t) ((dats m 0 c).after 22 t) = _
  rw [after22_eq]
  funext j
  show actorBlock m c j = actorBlock m c (((cfg0.win 22).blk t).view.emb j)
  have e : ((cfg0.win 22).blk t).view.emb j = j := by
    funext a; apply Fin.ext
    obtain ⟨e0, e1⟩ := idx22 t
    match a with
    | ⟨0, _⟩ => show win0_22.index t (0 : Fin 2) * 3 + 1 * (j 0).val = (j 0).val; omega
    | ⟨1, _⟩ => show win0_22.index t (1 : Fin 2) * 1 + 1 * (j 1).val = (j 1).val; omega
  rw [e]

/-- An index of window 22's array is in point `t`'s block iff each coordinate is in the block's range on its axis. -/
theorem mem_blk22 (t : Fin cfg0.N) (i : S3x1.Idx) :
    i ∈ ((cfg0.win 22).blk t).view.set ↔ ∀ a : Fin 2, win0_22.index t a * S3x1.size a ≤ (i a).val ∧ (i a).val < win0_22.index t a * S3x1.size a + S3x1.size a := by
  show i ∈ ((View.whole main_v3_1).slice (win0_22.rect t)).set ↔ _
  rw [View.set_slice_whole, Rect.mem_set_unit]
  exact Iff.rfl

/-- The one point's block covers every index of window 22's array, and the point writes back. -/
theorem cover22 (i : S3x1.Idx) :
    ∃ t : Fin cfg0.N, (cfg0.win 22).flush t = true ∧ i ∈ ((cfg0.win 22).blk t).view.set := by
  refine ⟨t0_0, flush0_22 t0_0, ?_⟩
  rw [mem_blk22]
  obtain ⟨e0, e1⟩ := idx22 t0_0
  have h0 : (i 0).val < 3 := (i 0).isLt
  have h1 : (i 1).val < 1 := (i 1).isLt
  intro a
  match a with
  | ⟨0, _⟩ => show win0_22.index t0_0 (0 : Fin 2) * 3 ≤ (i 0).val ∧ (i 0).val < win0_22.index t0_0 (0 : Fin 2) * 3 + 3; omega
  | ⟨1, _⟩ => show win0_22.index t0_0 (1 : Fin 2) * 1 ≤ (i 1).val ∧ (i 1).val < win0_22.index t0_0 (1 : Fin 2) * 1 + 1; omega

/-- Window 22's array after the run is the first actor head's block. -/
theorem final22 (c : Dev nD) : (dats m 0 c).arrAt 22 cfg0.N = actorBlock m c :=
  (dats m 0 c).arrAt_eq_of_cover 22 _ (fun t _ => flushed22_eq m c t) cover22

/-- Window 23's block index is zero on every axis at every point. -/
theorem idx23 : ∀ t : Fin cfg0.N, win0_23.index t (0 : Fin 2) = 0 ∧ win0_23.index t (1 : Fin 2) = 0 :=
  (by decide +kernel : ∀ t : Fin grid0.N, _)

/-- What point `t` writes back to window 23's array is the second actor head's block read through the point's block. -/
theorem flushed23_eq (c : Dev nD) (t : Fin cfg0.N) :
    (dats m 0 c).flushed 23 t = ((cfg0.win 23).blk t).view.read (Elt F) (actor2Block m c) := by
  show (cfg0.win 23).cut (grid0.coords t) ((dats m 0 c).after 23 t) = _
  rw [after23_eq]
  funext j
  show actor2Block m c j = actor2Block m c (((cfg0.win 23).blk t).view.emb j)
  have e : ((cfg0.win 23).blk t).view.emb j = j := by
    funext a; apply Fin.ext
    obtain ⟨e0, e1⟩ := idx23 t
    match a with
    | ⟨0, _⟩ => show win0_23.index t (0 : Fin 2) * 3 + 1 * (j 0).val = (j 0).val; omega
    | ⟨1, _⟩ => show win0_23.index t (1 : Fin 2) * 1 + 1 * (j 1).val = (j 1).val; omega
  rw [e]

/-- An index of window 23's array is in point `t`'s block iff each coordinate is in the block's range on its axis. -/
theorem mem_blk23 (t : Fin cfg0.N) (i : S3x1.Idx) :
    i ∈ ((cfg0.win 23).blk t).view.set ↔ ∀ a : Fin 2, win0_23.index t a * S3x1.size a ≤ (i a).val ∧ (i a).val < win0_23.index t a * S3x1.size a + S3x1.size a := by
  show i ∈ ((View.whole main_v3_2).slice (win0_23.rect t)).set ↔ _
  rw [View.set_slice_whole, Rect.mem_set_unit]
  exact Iff.rfl

/-- The one point's block covers every index of window 23's array, and the point writes back. -/
theorem cover23 (i : S3x1.Idx) :
    ∃ t : Fin cfg0.N, (cfg0.win 23).flush t = true ∧ i ∈ ((cfg0.win 23).blk t).view.set := by
  refine ⟨t0_0, flush0_23 t0_0, ?_⟩
  rw [mem_blk23]
  obtain ⟨e0, e1⟩ := idx23 t0_0
  have h0 : (i 0).val < 3 := (i 0).isLt
  have h1 : (i 1).val < 1 := (i 1).isLt
  intro a
  match a with
  | ⟨0, _⟩ => show win0_23.index t0_0 (0 : Fin 2) * 3 ≤ (i 0).val ∧ (i 0).val < win0_23.index t0_0 (0 : Fin 2) * 3 + 3; omega
  | ⟨1, _⟩ => show win0_23.index t0_0 (1 : Fin 2) * 1 ≤ (i 1).val ∧ (i 1).val < win0_23.index t0_0 (1 : Fin 2) * 1 + 1; omega

/-- Window 23's array after the run is the second actor head's block. -/
theorem final23 (c : Dev nD) : (dats m 0 c).arrAt 23 cfg0.N = actor2Block m c :=
  (dats m 0 c).arrAt_eq_of_cover 23 _ (fun t _ => flushed23_eq m c t) cover23

/-! ## The reshapes after the region

After the region each output array holds its block and every other buffer what it held at the region's entry; the
three reshapes that follow read the three output arrays. -/

/-- The first result is window 21's array after the run with both unit axes dropped. -/
theorem tail_main_v4 (c : Dev nD) :
    Pipeline.afterTail₀ cfgs (dats m) 0 (V0 m) [hostOps1] c main_v4 = shapeCast S_ (valueBlock m c) shapeCasts_S1x1_S_ := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0) = valueBlock m c :=
    (Pipeline.withArrays_arr spec0 launch0.win.arr_inj c _ _ 21).trans (final21 m c)
  rw [hw]
  rfl

/-- The second result is window 22's array after the run with its trailing unit axis dropped. -/
theorem tail_main_v5 (c : Dev nD) :
    Pipeline.afterTail₀ cfgs (dats m) 0 (V0 m) [hostOps1] c main_v5 = shapeCast S3 (actorBlock m c) shapeCasts_S3x1_S3 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1) = actorBlock m c :=
    (Pipeline.withArrays_arr spec0 launch0.win.arr_inj c _ _ 22).trans (final22 m c)
  rw [hw]
  rfl

/-- The third result is window 23's array after the run with its trailing unit axis dropped. -/
theorem tail_main_v6 (c : Dev nD) :
    Pipeline.afterTail₀ cfgs (dats m) 0 (V0 m) [hostOps1] c main_v6 = shapeCast S3 (actor2Block m c) shapeCasts_S3x1_S3 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v3_2) = actor2Block m c :=
    (Pipeline.withArrays_arr spec0 launch0.win.arr_inj c _ _ 23).trans (final23 m c)
  rw [hw]
  rfl

/-! ## The frame run's post, buffer by buffer -/

/-- After the run, result `main_v4` holds the reshape of the value head's block. -/
theorem result_main_v4 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_v4) = shapeCast S_ (valueBlock m c) shapeCasts_S1x1_S_ :=
  ((h c).2 main_v4 (Pipeline.mem_restRefs_of main_v4 (by decide) (by decide))).trans (tail_main_v4 m c)

/-- After the run, result `main_v5` holds the reshape of the first actor head's block. -/
theorem result_main_v5 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_v5) = shapeCast S3 (actorBlock m c) shapeCasts_S3x1_S3 :=
  ((h c).2 main_v5 (Pipeline.mem_restRefs_of main_v5 (by decide) (by decide))).trans (tail_main_v5 m c)

/-- After the run, result `main_v6` holds the reshape of the second actor head's block. -/
theorem result_main_v6 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_v6) = shapeCast S3 (actor2Block m c) shapeCasts_S3x1_S3 :=
  ((h c).2 main_v6 (Pipeline.mem_restRefs_of main_v6 (by decide) (by decide))).trans (tail_main_v6 m c)

/-- After the run, argument `main_arg0` is as launched: input window 0 stages it and never writes it back. -/
theorem kept_main_arg0 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the run, argument `main_arg1` is as launched: input window 1 stages it and never writes it back. -/
theorem kept_main_arg1 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- After the run, argument `main_arg2` is as launched: input window 2 stages it and never writes it back. -/
theorem kept_main_arg2 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

/-- After the run, argument `main_arg3` is as launched: input window 3 stages it and never writes it back. -/
theorem kept_main_arg3 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

/-- After the run, argument `main_arg4` is as launched: input window 4 stages it and never writes it back. -/
theorem kept_main_arg4 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

/-- After the run, argument `main_arg5` is as launched: input window 5 stages it and never writes it back. -/
theorem kept_main_arg5 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))

/-- After the run, argument `main_arg6` is as launched: input window 6 stages it and never writes it back. -/
theorem kept_main_arg6 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))

/-- After the run, argument `main_arg7` is as launched: input window 7 stages it and never writes it back. -/
theorem kept_main_arg7 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))

/-- After the run, argument `main_arg8` is as launched: input window 8 stages it and never writes it back. -/
theorem kept_main_arg8 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))

/-- After the run, argument `main_arg9` is as launched: input window 9 stages it and never writes it back. -/
theorem kept_main_arg9 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-- After the run, argument `main_arg10` is as launched: input window 10 stages it and never writes it back. -/
theorem kept_main_arg10 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))

/-- After the run, argument `main_arg11` is as launched: input window 11 stages it and never writes it back. -/
theorem kept_main_arg11 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).1 11).trans (((dats m 0 c).arrAt_in 11 rfl _).trans ((A_eq m c 11).trans (V_main_arg11 m c)))

/-- After the run, argument `main_arg12` is as launched: input window 12 stages it and never writes it back. -/
theorem kept_main_arg12 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).1 12).trans (((dats m 0 c).arrAt_in 12 rfl _).trans ((A_eq m c 12).trans (V_main_arg12 m c)))

/-- After the run, argument `main_arg13` is as launched: input window 13 stages it and never writes it back. -/
theorem kept_main_arg13 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).1 13).trans (((dats m 0 c).arrAt_in 13 rfl _).trans ((A_eq m c 13).trans (V_main_arg13 m c)))

/-- After the run, argument `main_arg14` is as launched: input window 14 stages it and never writes it back. -/
theorem kept_main_arg14 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 14).trans (((dats m 0 c).arrAt_in 14 rfl _).trans ((A_eq m c 14).trans (V_main_arg14 m c)))

/-- After the run, argument `main_arg15` is as launched: input window 15 stages it and never writes it back. -/
theorem kept_main_arg15 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 15).trans (((dats m 0 c).arrAt_in 15 rfl _).trans ((A_eq m c 15).trans (V_main_arg15 m c)))

/-- After the run, argument `main_arg16` is as launched: no window stages it (a reshape of it is staged instead) and no later line writes it. -/
theorem kept_main_arg16 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m (dats m) c)

/-- After the run, argument `main_arg17` is as launched: input window 17 stages it and never writes it back. -/
theorem kept_main_arg17 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).1 17).trans (((dats m 0 c).arrAt_in 17 rfl _).trans ((A_eq m c 17).trans (V_main_arg17 m c)))

/-- After the run, argument `main_arg18` is as launched: no window stages it (a reshape of it is staged instead) and no later line writes it. -/
theorem kept_main_arg18 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).2 main_arg18 (Pipeline.mem_restRefs_of main_arg18 (by decide) (by decide))).trans (W_main_arg18 m (dats m) c)

/-- After the run, argument `main_arg19` is as launched: input window 19 stages it and never writes it back. -/
theorem kept_main_arg19 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).1 19).trans (((dats m 0 c).arrAt_in 19 rfl _).trans ((A_eq m c 19).trans (V_main_arg19 m c)))

/-- After the run, argument `main_arg20` is as launched: no window stages it (a reshape of it is staged instead) and no later line writes it. -/
theorem kept_main_arg20 (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).2 main_arg20 (Pipeline.mem_restRefs_of main_arg20 (by decide) (by decide))).trans (W_main_arg20 m (dats m) c)

/-! ## The run, read -/

/-- Every weakly fair execution of @main terminates without a fault; the three results then hold the value head's block
    and the two actor heads' blocks, each with its unit axes dropped, and every argument array is as launched. -/
theorem run : θ_run defs (onTc (τ := τ) (main (F := F))) ⟨m, fun _ => 0, ρ⟩ fun r => ∀ c : Dev nD,
      r.2.mem ((c.tc : Thread nD τ).loc main_v4) = shapeCast S_ (valueBlock m c) shapeCasts_S1x1_S_
      ∧ r.2.mem ((c.tc : Thread nD τ).loc main_v5) = shapeCast S3 (actorBlock m c) shapeCasts_S3x1_S3
      ∧ r.2.mem ((c.tc : Thread nD τ).loc main_v6) = shapeCast S3 (actor2Block m c) shapeCasts_S3x1_S3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨result_main_v4 m r h c,
      result_main_v5 m r h c,
      result_main_v6 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.KernelIdeal.RunValue

end
-- ==== Proof.RefRun.lean ====
/-
  The reference program's run, read back as values.

  The reference is a straight line of 107 host operations.  Every weakly fair execution of it terminates with each buffer
  at the fold of the operations' results over the launch contents.  Read at the three result buffers, that fold is the
  last stage of the operation-by-operation reading of the program: the value head's scalar, the actor head's three
  entries after soft-sign, and the second actor head's three entries, each a function of the argument arrays as launched;
  read at an argument buffer it is the launch contents, since no operation writes an argument.
-/
import proofs.«141714_j38903813767521_2_alg».proof.Proof.RefOps
import proofs.«141714_j38903813767521_2_alg».proof.Proof.RefRead

noncomputable section

namespace Cert.ReferenceIdeal.RefValue

open Cert.ReferenceIdeal Cert.ReferenceIdeal.Gen Idealize.ShloMosaic Idealize.ShloMosaic.TcCoe Idealize.SL.Sem
open Idealize.ShloMosaic.StableHlo Cert.ReferenceIdeal.ValueP Cert.ReferenceIdeal.ReadP

variable {F : FTy → Type} [FloatOps F]

/-- The value head's result on core c, from the launch contents of the arguments it depends on. -/
def value (m : (ℓ : Loc nD τ sig) → Buf (Elt F) ℓ) (c : Dev nD) : Buf (Elt F) ((c.tc : Thread nD τ).loc main_v77) :=
  val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The actor head's result on core c. -/
def actor (m : (ℓ : Loc nD τ sig) → Buf (Elt F) ℓ) (c : Dev nD) : Buf (Elt F) ((c.tc : Thread nD τ).loc main_v83) :=
  val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18))

/-- The second actor head's result on core c. -/
def actor2 (m : (ℓ : Loc nD τ sig) → Buf (Elt F) ℓ) (c : Dev nD) : Buf (Elt F) ((c.tc : Thread nD τ).loc main_v88) :=
  val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20))

set_option maxRecDepth 8192 in
set_option maxHeartbeats 40000000 in
/-- Every weakly fair execution of the reference terminates with the three results at those values and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = value m c
      ∧ r.2.mem ((c.tc : Thread nD τ).loc main_v83) = actor m c
      ∧ r.2.mem ((c.tc : Thread nD τ).loc main_v88) = actor2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v77).trans (by after_results_simp <;> rfl),
      (h c main_v83).trans (by after_results_simp <;> rfl),
      (h c main_v88).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl)⟩)
    (run_seq scopedRefs_eq scopedSems_eq defs main (fun _ => ops) main_eq (fun _ => ops_sub) m ρ)

end Cert.ReferenceIdeal.RefValue

end
-- ==== Proof.MatmulSum.lean ====
/-
  A dense layer's matrix product, read at one output index.

  The idealized kernel computes each dense layer's product x · Wᵀ as a matrix product of a row vector x : [1, K] with
  the weight matrix W : [N, K], both contracted along their second axis, into a zero accumulator.  Over the extended
  reals the entry at output index i = (0, n) is the plain sum  ∑ k, x (0, k) · W (n, k).

  The reference computes the same product as a dot_general of x with the TRANSPOSE of W.  Its read lemmas state that
  sum with the left operand at lidx i k = (i 0, k) and the transposed right operand at ridx i k = (k, i 1), and read the
  transpose itself at idx (a, b) = (b, a).  The lemmas below state the kernel's sum in exactly those index functions,
  x (lidx i k) · W (idx (ridx i k)), so that the two sides of a layer meet term for term.  One lemma per shape of
  product: 29 → 256, 256 → 256, 256 → 128, 128 → 128 and 128 → 512 (the last serves both LSTM projections).
-/
import proofs.«141714_j38903813767521_2_alg».proof.Proof.Gen.KernelIdeal
import proofs.«141714_j38903813767521_2_alg».proof.Proof.RefRead
import Idealize.ShloMosaic.Lib.ValueIdx
import Idealize.ShloMosaic.PureOps.Ideal.Laws

noncomputable section

namespace Cert.Bridge

open Idealize.ShloMosaic Idealize.ShloMosaic.TcCoe Cert.ReferenceIdeal.ReadP

/-- The kernel's five contractions, by input and output width. -/
abbrev kd29to256 : DotDims Cert.KernelIdeal.S1x29 Cert.KernelIdeal.S256x29 Cert.KernelIdeal.S1x256 :=
  Cert.KernelIdeal.dot_S1x29_S256x29_S1x256_1_1_0_0_n_n
abbrev kd256to256 : DotDims Cert.KernelIdeal.S1x256 Cert.KernelIdeal.S256x256 Cert.KernelIdeal.S1x256 :=
  Cert.KernelIdeal.dot_S1x256_S256x256_S1x256_1_1_0_0_n_n
abbrev kd256to128 : DotDims Cert.KernelIdeal.S1x256 Cert.KernelIdeal.S128x256 Cert.KernelIdeal.S1x128 :=
  Cert.KernelIdeal.dot_S1x256_S128x256_S1x128_1_1_0_0_n_n
abbrev kd128to128 : DotDims Cert.KernelIdeal.S1x128 Cert.KernelIdeal.S128x128 Cert.KernelIdeal.S1x128 :=
  Cert.KernelIdeal.dot_S1x128_S128x128_S1x128_1_1_0_0_n_n
abbrev kd128to512 : DotDims Cert.KernelIdeal.S1x128 Cert.KernelIdeal.S512x128 Cert.KernelIdeal.S1x512 :=
  Cert.KernelIdeal.dot_S1x128_S512x128_S1x512_1_1_0_0_n_n

/-! ## First layer: 29 inputs, 256 outputs -/

theorem mm29to256_lhs0 (i : Cert.KernelIdeal.S1x256.Idx) (q : kd29to256.contr.Idx) :
    (kd29to256.lhsIdx i q 0).val = (i 0).val := by
  unfold DotDims.lhsIdx
  rw [dif_neg (show ¬(0 : Fin Cert.KernelIdeal.S1x29.rank) ∈ kd29to256.lhsBatch by decide),
    dif_pos (show (0 : Fin Cert.KernelIdeal.S1x29.rank) ∈ kd29to256.lhsNonContracting by decide)]
  rfl
theorem mm29to256_lhs1 (i : Cert.KernelIdeal.S1x256.Idx) (q : kd29to256.contr.Idx) :
    (kd29to256.lhsIdx i q 1).val = (q ⟨0, by decide⟩).val :=
  kd29to256.lhsIdx_val_of_single rfl i q
theorem mm29to256_rhs0 (i : Cert.KernelIdeal.S1x256.Idx) (q : kd29to256.contr.Idx) :
    (kd29to256.rhsIdx i q 0).val = (i 1).val := by
  unfold DotDims.rhsIdx
  rw [dif_neg (show ¬(0 : Fin Cert.KernelIdeal.S256x29.rank) ∈ kd29to256.rhsBatch by decide),
    dif_pos (show (0 : Fin Cert.KernelIdeal.S256x29.rank) ∈ kd29to256.rhsNonContracting by decide)]
  rfl
theorem mm29to256_rhs1 (i : Cert.KernelIdeal.S1x256.Idx) (q : kd29to256.contr.Idx) :
    (kd29to256.rhsIdx i q 1).val = (q ⟨0, by decide⟩).val :=
  kd29to256.rhsIdx_val_of_single rfl i q

/-- The product's entry at i is the sum over the 29 input coordinates of x (i 0, k) · W (i 1, k). -/
theorem mm29to256_apply (x : FVec Ideal Cert.KernelIdeal.S1x29 .f32) (w : FVec Ideal Cert.KernelIdeal.S256x29 .f32)
    (i : Cert.KernelIdeal.S1x256.Idx) :
    matmul kd29to256 (some .fp32) x w (constant Cert.KernelIdeal.S1x256 .f32 0x00000000#32) i
      = ∑ k : Fin 29, x (lidx_main_v1 i k) * w (idx_main_v0 (ridx_main_v1 i k)) := by
  simp only [matmul]
  rw [Ideal.matmul_constant_zero_apply, ← Equiv.sum_comp (ValueIdx.contrEquiv1 kd29to256 29 rfl rfl).symm]
  refine Finset.sum_congr rfl fun k _ => ?_
  have hk := ValueIdx.contrEquiv1_symm_val kd29to256 29 rfl rfl k
  have el : kd29to256.lhsIdx i ((ValueIdx.contrEquiv1 kd29to256 29 rfl rfl).symm k) = lidx_main_v1 i k :=
    funext fun a => Fin.ext (by
      match a with
      | ⟨0, _⟩ => exact mm29to256_lhs0 _ _
      | ⟨1, _⟩ => exact (mm29to256_lhs1 _ _).trans hk)
  have er : kd29to256.rhsIdx i ((ValueIdx.contrEquiv1 kd29to256 29 rfl rfl).symm k)
      = idx_main_v0 (ridx_main_v1 i k) :=
    funext fun a => Fin.ext (by
      match a with
      | ⟨0, _⟩ => exact mm29to256_rhs0 _ _
      | ⟨1, _⟩ => exact (mm29to256_rhs1 _ _).trans hk)
  rw [el, er]

/-! ## Second layer: 256 inputs, 256 outputs -/

theorem mm256to256_lhs0 (i : Cert.KernelIdeal.S1x256.Idx) (q : kd256to256.contr.Idx) :
    (kd256to256.lhsIdx i q 0).val = (i 0).val := by
  unfold DotDims.lhsIdx
  rw [dif_neg (show ¬(0 : Fin Cert.KernelIdeal.S1x256.rank) ∈ kd256to256.lhsBatch by decide),
    dif_pos (show (0 : Fin Cert.KernelIdeal.S1x256.rank) ∈ kd256to256.lhsNonContracting by decide)]
  rfl
theorem mm256to256_lhs1 (i : Cert.KernelIdeal.S1x256.Idx) (q : kd256to256.contr.Idx) :
    (kd256to256.lhsIdx i q 1).val = (q ⟨0, by decide⟩).val :=
  kd256to256.lhsIdx_val_of_single rfl i q
theorem mm256to256_rhs0 (i : Cert.KernelIdeal.S1x256.Idx) (q : kd256to256.contr.Idx) :
    (kd256to256.rhsIdx i q 0).val = (i 1).val := by
  unfold DotDims.rhsIdx
  rw [dif_neg (show ¬(0 : Fin Cert.KernelIdeal.S256x256.rank) ∈ kd256to256.rhsBatch by decide),
    dif_pos (show (0 : Fin Cert.KernelIdeal.S256x256.rank) ∈ kd256to256.rhsNonContracting by decide)]
  rfl
theorem mm256to256_rhs1 (i : Cert.KernelIdeal.S1x256.Idx) (q : kd256to256.contr.Idx) :
    (kd256to256.rhsIdx i q 1).val = (q ⟨0, by decide⟩).val :=
  kd256to256.rhsIdx_val_of_single rfl i q

/-- The product's entry at i is the sum over the 256 input coordinates of x (i 0, k) · W (i 1, k). -/
theorem mm256to256_apply (x : FVec Ideal Cert.KernelIdeal.S1x256 .f32) (w : FVec Ideal Cert.KernelIdeal.S256x256 .f32)
    (i : Cert.KernelIdeal.S1x256.Idx) :
    matmul kd256to256 (some .fp32) x w (constant Cert.KernelIdeal.S1x256 .f32 0x00000000#32) i
      = ∑ k : Fin 256, x (lidx_main_v10 i k) * w (idx_main_v9 (ridx_main_v10 i k)) := by
  simp only [matmul]
  rw [Ideal.matmul_constant_zero_apply, ← Equiv.sum_comp (ValueIdx.contrEquiv1 kd256to256 256 rfl rfl).symm]
  refine Finset.sum_congr rfl fun k _ => ?_
  have hk := ValueIdx.contrEquiv1_symm_val kd256to256 256 rfl rfl k
  have el : kd256to256.lhsIdx i ((ValueIdx.contrEquiv1 kd256to256 256 rfl rfl).symm k) = lidx_main_v10 i k :=
    funext fun a => Fin.ext (by
      match a with
      | ⟨0, _⟩ => exact mm256to256_lhs0 _ _
      | ⟨1, _⟩ => exact (mm256to256_lhs1 _ _).trans hk)
  have er : kd256to256.rhsIdx i ((ValueIdx.contrEquiv1 kd256to256 256 rfl rfl).symm k)
      = idx_main_v9 (ridx_main_v10 i k) :=
    funext fun a => Fin.ext (by
      match a with
      | ⟨0, _⟩ => exact mm256to256_rhs0 _ _
      | ⟨1, _⟩ => exact (mm256to256_rhs1 _ _).trans hk)
  rw [el, er]

/-! ## Third layer: 256 inputs, 128 outputs -/

theorem mm256to128_lhs0 (i : Cert.KernelIdeal.S1x128.Idx) (q : kd256to128.contr.Idx) :
    (kd256to128.lhsIdx i q 0).val = (i 0).val := by
  unfold DotDims.lhsIdx
  rw [dif_neg (show ¬(0 : Fin Cert.KernelIdeal.S1x256.rank) ∈ kd256to128.lhsBatch by decide),
    dif_pos (show (0 : Fin Cert.KernelIdeal.S1x256.rank) ∈ kd256to128.lhsNonContracting by decide)]
  rfl
theorem mm256to128_lhs1 (i : Cert.KernelIdeal.S1x128.Idx) (q : kd256to128.contr.Idx) :
    (kd256to128.lhsIdx i q 1).val = (q ⟨0, by decide⟩).val :=
  kd256to128.lhsIdx_val_of_single rfl i q
theorem mm256to128_rhs0 (i : Cert.KernelIdeal.S1x128.Idx) (q : kd256to128.contr.Idx) :
    (kd256to128.rhsIdx i q 0).val = (i 1).val := by
  unfold DotDims.rhsIdx
  rw [dif_neg (show ¬(0 : Fin Cert.KernelIdeal.S128x256.rank) ∈ kd256to128.rhsBatch by decide),
    dif_pos (show (0 : Fin Cert.KernelIdeal.S128x256.rank) ∈ kd256to128.rhsNonContracting by decide)]
  rfl
theorem mm256to128_rhs1 (i : Cert.KernelIdeal.S1x128.Idx) (q : kd256to128.contr.Idx) :
    (kd256to128.rhsIdx i q 1).val = (q ⟨0, by decide⟩).val :=
  kd256to128.rhsIdx_val_of_single rfl i q

/-- The product's entry at i is the sum over the 256 input coordinates of x (i 0, k) · W (i 1, k). -/
theorem mm256to128_apply (x : FVec Ideal Cert.KernelIdeal.S1x256 .f32) (w : FVec Ideal Cert.KernelIdeal.S128x256 .f32)
    (i : Cert.KernelIdeal.S1x128.Idx) :
    matmul kd256to128 (some .fp32) x w (constant Cert.KernelIdeal.S1x128 .f32 0x00000000#32) i
      = ∑ k : Fin 256, x (lidx_main_v19 i k) * w (idx_main_v18 (ridx_main_v19 i k)) := by
  simp only [matmul]
  rw [Ideal.matmul_constant_zero_apply, ← Equiv.sum_comp (ValueIdx.contrEquiv1 kd256to128 256 rfl rfl).symm]
  refine Finset.sum_congr rfl fun k _ => ?_
  have hk := ValueIdx.contrEquiv1_symm_val kd256to128 256 rfl rfl k
  have el : kd256to128.lhsIdx i ((ValueIdx.contrEquiv1 kd256to128 256 rfl rfl).symm k) = lidx_main_v19 i k :=
    funext fun a => Fin.ext (by
      match a with
      | ⟨0, _⟩ => exact mm256to128_lhs0 _ _
      | ⟨1, _⟩ => exact (mm256to128_lhs1 _ _).trans hk)
  have er : kd256to128.rhsIdx i ((ValueIdx.contrEquiv1 kd256to128 256 rfl rfl).symm k)
      = idx_main_v18 (ridx_main_v19 i k) :=
    funext fun a => Fin.ext (by
      match a with
      | ⟨0, _⟩ => exact mm256to128_rhs0 _ _
      | ⟨1, _⟩ => exact (mm256to128_rhs1 _ _).trans hk)
  rw [el, er]

/-! ## Fourth layer: 128 inputs, 128 outputs -/

theorem mm128to128_lhs0 (i : Cert.KernelIdeal.S1x128.Idx) (q : kd128to128.contr.Idx) :
    (kd128to128.lhsIdx i q 0).val = (i 0).val := by
  unfold DotDims.lhsIdx
  rw [dif_neg (show ¬(0 : Fin Cert.KernelIdeal.S1x128.rank) ∈ kd128to128.lhsBatch by decide),
    dif_pos (show (0 : Fin Cert.KernelIdeal.S1x128.rank) ∈ kd128to128.lhsNonContracting by decide)]
  rfl
theorem mm128to128_lhs1 (i : Cert.KernelIdeal.S1x128.Idx) (q : kd128to128.contr.Idx) :
    (kd128to128.lhsIdx i q 1).val = (q ⟨0, by decide⟩).val :=
  kd128to128.lhsIdx_val_of_single rfl i q
theorem mm128to128_rhs0 (i : Cert.KernelIdeal.S1x128.Idx) (q : kd128to128.contr.Idx) :
    (kd128to128.rhsIdx i q 0).val = (i 1).val := by
  unfold DotDims.rhsIdx
  rw [dif_neg (show ¬(0 : Fin Cert.KernelIdeal.S128x128.rank) ∈ kd128to128.rhsBatch by decide),
    dif_pos (show (0 : Fin Cert.KernelIdeal.S128x128.rank) ∈ kd128to128.rhsNonContracting by decide)]
  rfl
theorem mm128to128_rhs1 (i : Cert.KernelIdeal.S1x128.Idx) (q : kd128to128.contr.Idx) :
    (kd128to128.rhsIdx i q 1).val = (q ⟨0, by decide⟩).val :=
  kd128to128.rhsIdx_val_of_single rfl i q

/-- The product's entry at i is the sum over the 128 input coordinates of x (i 0, k) · W (i 1, k). -/
theorem mm128to128_apply (x : FVec Ideal Cert.KernelIdeal.S1x128 .f32) (w : FVec Ideal Cert.KernelIdeal.S128x128 .f32)
    (i : Cert.KernelIdeal.S1x128.Idx) :
    matmul kd128to128 (some .fp32) x w (constant Cert.KernelIdeal.S1x128 .f32 0x00000000#32) i
      = ∑ k : Fin 128, x (lidx_main_v28 i k) * w (idx_main_v27 (ridx_main_v28 i k)) := by
  simp only [matmul]
  rw [Ideal.matmul_constant_zero_apply, ← Equiv.sum_comp (ValueIdx.contrEquiv1 kd128to128 128 rfl rfl).symm]
  refine Finset.sum_congr rfl fun k _ => ?_
  have hk := ValueIdx.contrEquiv1_symm_val kd128to128 128 rfl rfl k
  have el : kd128to128.lhsIdx i ((ValueIdx.contrEquiv1 kd128to128 128 rfl rfl).symm k) = lidx_main_v28 i k :=
    funext fun a => Fin.ext (by
      match a with
      | ⟨0, _⟩ => exact mm128to128_lhs0 _ _
      | ⟨1, _⟩ => exact (mm128to128_lhs1 _ _).trans hk)
  have er : kd128to128.rhsIdx i ((ValueIdx.contrEquiv1 kd128to128 128 rfl rfl).symm k)
      = idx_main_v27 (ridx_main_v28 i k) :=
    funext fun a => Fin.ext (by
      match a with
      | ⟨0, _⟩ => exact mm128to128_rhs0 _ _
      | ⟨1, _⟩ => exact (mm128to128_rhs1 _ _).trans hk)
  rw [el, er]

/-! ## The LSTM's two projections: 128 inputs, 512 gate pre-activations -/

theorem mm128to512_lhs0 (i : Cert.KernelIdeal.S1x512.Idx) (q : kd128to512.contr.Idx) :
    (kd128to512.lhsIdx i q 0).val = (i 0).val := by
  unfold DotDims.lhsIdx
  rw [dif_neg (show ¬(0 : Fin Cert.KernelIdeal.S1x128.rank) ∈ kd128to512.lhsBatch by decide),
    dif_pos (show (0 : Fin Cert.KernelIdeal.S1x128.rank) ∈ kd128to512.lhsNonContracting by decide)]
  rfl
theorem mm128to512_lhs1 (i : Cert.KernelIdeal.S1x512.Idx) (q : kd128to512.contr.Idx) :
    (kd128to512.lhsIdx i q 1).val = (q ⟨0, by decide⟩).val :=
  kd128to512.lhsIdx_val_of_single rfl i q
theorem mm128to512_rhs0 (i : Cert.KernelIdeal.S1x512.Idx) (q : kd128to512.contr.Idx) :
    (kd128to512.rhsIdx i q 0).val = (i 1).val := by
  unfold DotDims.rhsIdx
  rw [dif_neg (show ¬(0 : Fin Cert.KernelIdeal.S512x128.rank) ∈ kd128to512.rhsBatch by decide),
    dif_pos (show (0 : Fin Cert.KernelIdeal.S512x128.rank) ∈ kd128to512.rhsNonContracting by decide)]
  rfl
theorem mm128to512_rhs1 (i : Cert.KernelIdeal.S1x512.Idx) (q : kd128to512.contr.Idx) :
    (kd128to512.rhsIdx i q 1).val = (q ⟨0, by decide⟩).val :=
  kd128to512.rhsIdx_val_of_single rfl i q

/-- The input projection's entry at i is the sum over the 128 hidden coordinates of x (i 0, k) · W (i 1, k). -/
theorem mm128to512_apply (x : FVec Ideal Cert.KernelIdeal.S1x128 .f32) (w : FVec Ideal Cert.KernelIdeal.S512x128 .f32)
    (i : Cert.KernelIdeal.S1x512.Idx) :
    matmul kd128to512 (some .fp32) x w (constant Cert.KernelIdeal.S1x512 .f32 0x00000000#32) i
      = ∑ k : Fin 128, x (lidx_main_v37 i k) * w (idx_main_v36 (ridx_main_v37 i k)) := by
  simp only [matmul]
  rw [Ideal.matmul_constant_zero_apply, ← Equiv.sum_comp (ValueIdx.contrEquiv1 kd128to512 128 rfl rfl).symm]
  refine Finset.sum_congr rfl fun k _ => ?_
  have hk := ValueIdx.contrEquiv1_symm_val kd128to512 128 rfl rfl k
  have el : kd128to512.lhsIdx i ((ValueIdx.contrEquiv1 kd128to512 128 rfl rfl).symm k) = lidx_main_v37 i k :=
    funext fun a => Fin.ext (by
      match a with
      | ⟨0, _⟩ => exact mm128to512_lhs0 _ _
      | ⟨1, _⟩ => exact (mm128to512_lhs1 _ _).trans hk)
  have er : kd128to512.rhsIdx i ((ValueIdx.contrEquiv1 kd128to512 128 rfl rfl).symm k)
      = idx_main_v36 (ridx_main_v37 i k) :=
    funext fun a => Fin.ext (by
      match a with
      | ⟨0, _⟩ => exact mm128to512_rhs0 _ _
      | ⟨1, _⟩ => exact (mm128to512_rhs1 _ _).trans hk)
  rw [el, er]

/-- The recurrent projection is the same product; the reference reads it through its own copies of the same index
    functions. -/
theorem mm128to512_apply_rec (x : FVec Ideal Cert.KernelIdeal.S1x128 .f32) (w : FVec Ideal Cert.KernelIdeal.S512x128 .f32)
    (i : Cert.KernelIdeal.S1x512.Idx) :
    matmul kd128to512 (some .fp32) x w (constant Cert.KernelIdeal.S1x512 .f32 0x00000000#32) i
      = ∑ k : Fin 128, x (lidx_main_v41 i k) * w (idx_main_v40 (ridx_main_v41 i k)) :=
  mm128to512_apply x w i

end Cert.Bridge

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.Dense.lean ====
/-
  The four dense layers with their LeakyReLU, and the LSTM gates' pre-activations.

  A dense layer maps a row vector x to  lrelu (x · Wᵀ + b),  where lrelu v is v where v > 0 and 0.1 · v elsewhere.
  The kernel adds the bias b : [N] as the row [1, N] it is cast to; the reference adds it broadcast along the second
  axis: at (0, n) both read b n.  The kernel compares with, and scales by, a scalar splat; the reference broadcasts a
  rank-0 constant: the same constant vector.  With the product read as the same sum on both sides (MatmulSum), each
  layer of the kernel, applied to the reference's previous stage, IS the reference's next stage; the kernel's payload
  of three layers is then the reference's third stage by composing the three equalities.

  The gates' pre-activation is (h · W_ihᵀ + b_ih) + (hx · W_hhᵀ + b_hh) in the kernel and
  ((h · W_ihᵀ + b_ih) + hx · W_hhᵀ) + b_hh in the reference: equal by associativity of addition of extended reals,
  which holds at every value, infinite ones included.
-/
import proofs.«141714_j38903813767521_2_alg».proof.Proof.MatmulSum
import proofs.«141714_j38903813767521_2_alg».proof.Proof.Gen.KernelIdeal.Skeleton
import proofs.«141714_j38903813767521_2_alg».proof.Proof.LibLayout

noncomputable section

namespace Cert.Bridge

open Idealize.ShloMosaic Idealize.ShloMosaic.TcCoe Cert.ReferenceIdeal.ReadP Cert.Lib

/-- LeakyReLU of slope 0.1 in the kernel's spelling: the entry where it is positive, a tenth of it elsewhere. -/
def kLrelu {s : Shape} (v : FVec Ideal s .f32) : FVec Ideal s .f32 :=
  select (cmpf .ogt v (broadcast s (Scalar.ofBits .f32 0x00000000#32))) v
    (mulf (broadcast s (Scalar.ofBits .f32 0x3DCCCCCD#32)) v)

/-- The kernel's affine maps x ↦ x · Wᵀ + b, one per shape. -/
def kDense1 (x : FVec Ideal Cert.KernelIdeal.S1x29 .f32) (w : FVec Ideal Cert.KernelIdeal.S256x29 .f32)
    (b : FVec Ideal Cert.KernelIdeal.S256 .f32) : FVec Ideal Cert.KernelIdeal.S1x256 .f32 :=
  addf (matmul kd29to256 (some .fp32) x w (constant Cert.KernelIdeal.S1x256 .f32 0x00000000#32))
    (shapeCast Cert.KernelIdeal.S1x256 b Cert.KernelIdeal.Facts₀.shapeCasts_S256_S1x256)
def kDense2 (x : FVec Ideal Cert.KernelIdeal.S1x256 .f32) (w : FVec Ideal Cert.KernelIdeal.S256x256 .f32)
    (b : FVec Ideal Cert.KernelIdeal.S256 .f32) : FVec Ideal Cert.KernelIdeal.S1x256 .f32 :=
  addf (matmul kd256to256 (some .fp32) x w (constant Cert.KernelIdeal.S1x256 .f32 0x00000000#32))
    (shapeCast Cert.KernelIdeal.S1x256 b Cert.KernelIdeal.Facts₀.shapeCasts_S256_S1x256)
def kDense3 (x : FVec Ideal Cert.KernelIdeal.S1x256 .f32) (w : FVec Ideal Cert.KernelIdeal.S128x256 .f32)
    (b : FVec Ideal Cert.KernelIdeal.S128 .f32) : FVec Ideal Cert.KernelIdeal.S1x128 .f32 :=
  addf (matmul kd256to128 (some .fp32) x w (constant Cert.KernelIdeal.S1x128 .f32 0x00000000#32))
    (shapeCast Cert.KernelIdeal.S1x128 b Cert.KernelIdeal.Facts₀.shapeCasts_S128_S1x128)
def kDense4 (x : FVec Ideal Cert.KernelIdeal.S1x128 .f32) (w : FVec Ideal Cert.KernelIdeal.S128x128 .f32)
    (b : FVec Ideal Cert.KernelIdeal.S128 .f32) : FVec Ideal Cert.KernelIdeal.S1x128 .f32 :=
  addf (matmul kd128to128 (some .fp32) x w (constant Cert.KernelIdeal.S1x128 .f32 0x00000000#32))
    (shapeCast Cert.KernelIdeal.S1x128 b Cert.KernelIdeal.Facts₀.shapeCasts_S128_S1x128)
def kDense5 (x : FVec Ideal Cert.KernelIdeal.S1x128 .f32) (w : FVec Ideal Cert.KernelIdeal.S512x128 .f32)
    (b : FVec Ideal Cert.KernelIdeal.S512 .f32) : FVec Ideal Cert.KernelIdeal.S1x512 .f32 :=
  addf (matmul kd128to512 (some .fp32) x w (constant Cert.KernelIdeal.S1x512 .f32 0x00000000#32))
    (shapeCast Cert.KernelIdeal.S1x512 b Cert.KernelIdeal.Facts₀.shapeCasts_S512_S1x512)

/-- The gates' pre-activation in the kernel's grouping: the input projection plus the recurrent projection. -/
def kGates (h : FVec Ideal Cert.KernelIdeal.S1x128 .f32) (wih : FVec Ideal Cert.KernelIdeal.S512x128 .f32)
    (bih : FVec Ideal Cert.KernelIdeal.S512 .f32) (hx : FVec Ideal Cert.KernelIdeal.S1x128 .f32)
    (whh : FVec Ideal Cert.KernelIdeal.S512x128 .f32) (bhh : FVec Ideal Cert.KernelIdeal.S512 .f32) :
    FVec Ideal Cert.KernelIdeal.S1x512 .f32 :=
  addf (kDense5 h wih bih) (kDense5 hx whh bhh)

/-- The kernel's first payload is its first three layers composed. -/
theorem pay3_comp (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) :
    Cert.KernelIdeal.Gen.k0_pay3 (F := Ideal) x0 x3 x4 x5 x6 x7 x8
      = kLrelu (kDense3 (kLrelu (kDense2 (kLrelu (kDense1 x0 x3 x4)) x5 x6)) x7 x8) := rfl

/-! ## First layer -/

theorem dense1_eq (x0 : FVec Ideal Cert.KernelIdeal.S1x29 .f32) (x3 : FVec Ideal Cert.KernelIdeal.S256x29 .f32)
    (x4 : FVec Ideal Cert.KernelIdeal.S256 .f32) : kDense1 x0 x3 x4 = val_main_v3 (F := Ideal) x0 x3 x4 := by
  funext i
  rw [val_main_v3_apply, val_main_v1_apply, val_main_v2_apply]
  simp only [val_main_v0_apply]
  show FloatOps.addf (matmul kd29to256 (some .fp32) x0 x3 (constant Cert.KernelIdeal.S1x256 .f32 0x00000000#32) i)
      (shapeCast Cert.KernelIdeal.S1x256 x4 Cert.KernelIdeal.Facts₀.shapeCasts_S256_S1x256 i) = _
  rw [mm29to256_apply, bias_row x4 _ i (idx_main_v2 i) rfl]

theorem h1_eq (x0 : FVec Ideal Cert.KernelIdeal.S1x29 .f32) (x3 : FVec Ideal Cert.KernelIdeal.S256x29 .f32)
    (x4 : FVec Ideal Cert.KernelIdeal.S256 .f32) :
    kLrelu (kDense1 x0 x3 x4) = val_main_v8 (F := Ideal) x0 x3 x4 := by
  rw [dense1_eq]
  unfold kLrelu val_main_v8 val_main_v5 val_main_v7 val_main_v4 val_main_v6 val_main_cst val_main_cst_0
  rw [splat_eq, splat_eq]

/-! ## Second layer -/

theorem dense2_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) :
    kDense2 (val_main_v8 (F := Ideal) x0 x3 x4) x5 x6 = val_main_v12 (F := Ideal) x0 x3 x4 x5 x6 := by
  funext i
  rw [val_main_v12_apply, val_main_v10_apply, val_main_v11_apply]
  simp only [val_main_v9_apply]
  show FloatOps.addf (matmul kd256to256 (some .fp32) (val_main_v8 (F := Ideal) x0 x3 x4) x5
        (constant Cert.KernelIdeal.S1x256 .f32 0x00000000#32) i)
      (shapeCast Cert.KernelIdeal.S1x256 x6 Cert.KernelIdeal.Facts₀.shapeCasts_S256_S1x256 i) = _
  rw [mm256to256_apply, bias_row x6 _ i (idx_main_v11 i) rfl]

theorem h2_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) :
    kLrelu (kDense2 (val_main_v8 (F := Ideal) x0 x3 x4) x5 x6) = val_main_v17 (F := Ideal) x0 x3 x4 x5 x6 := by
  rw [dense2_eq]
  unfold kLrelu val_main_v17 val_main_v14 val_main_v16 val_main_v13 val_main_v15 val_main_cst_1 val_main_cst_2
  rw [splat_eq, splat_eq]

/-! ## Third layer -/

theorem dense3_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) :
    kDense3 (val_main_v17 (F := Ideal) x0 x3 x4 x5 x6) x7 x8 = val_main_v21 (F := Ideal) x0 x3 x4 x5 x6 x7 x8 := by
  funext i
  rw [val_main_v21_apply, val_main_v19_apply, val_main_v20_apply]
  simp only [val_main_v18_apply]
  show FloatOps.addf (matmul kd256to128 (some .fp32) (val_main_v17 (F := Ideal) x0 x3 x4 x5 x6) x7
        (constant Cert.KernelIdeal.S1x128 .f32 0x00000000#32) i)
      (shapeCast Cert.KernelIdeal.S1x128 x8 Cert.KernelIdeal.Facts₀.shapeCasts_S128_S1x128 i) = _
  rw [mm256to128_apply, bias_row x8 _ i (idx_main_v20 i) rfl]

theorem h3_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) :
    kLrelu (kDense3 (val_main_v17 (F := Ideal) x0 x3 x4 x5 x6) x7 x8)
      = val_main_v26 (F := Ideal) x0 x3 x4 x5 x6 x7 x8 := by
  rw [dense3_eq]
  unfold kLrelu val_main_v26 val_main_v23 val_main_v25 val_main_v22 val_main_v24 val_main_cst_3 val_main_cst_4
  rw [splat_eq, splat_eq]

/-- The kernel's first payload is the reference's third hidden layer. -/
theorem pay3_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) :
    Cert.KernelIdeal.Gen.k0_pay3 (F := Ideal) x0 x3 x4 x5 x6 x7 x8
      = val_main_v26 (F := Ideal) x0 x3 x4 x5 x6 x7 x8 := by
  rw [pay3_comp, h1_eq, h2_eq, h3_eq]

/-! ## Fourth layer -/

theorem dense4_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) (x9 : FVec Ideal Cert.KernelIdeal.S128x128 .f32)
    (x10 : FVec Ideal Cert.KernelIdeal.S128 .f32) :
    kDense4 (val_main_v26 (F := Ideal) x0 x3 x4 x5 x6 x7 x8) x9 x10
      = val_main_v30 (F := Ideal) x0 x3 x4 x5 x6 x7 x8 x9 x10 := by
  funext i
  rw [val_main_v30_apply, val_main_v28_apply, val_main_v29_apply]
  simp only [val_main_v27_apply]
  show FloatOps.addf (matmul kd128to128 (some .fp32) (val_main_v26 (F := Ideal) x0 x3 x4 x5 x6 x7 x8) x9
        (constant Cert.KernelIdeal.S1x128 .f32 0x00000000#32) i)
      (shapeCast Cert.KernelIdeal.S1x128 x10 Cert.KernelIdeal.Facts₀.shapeCasts_S128_S1x128 i) = _
  rw [mm128to128_apply, bias_row x10 _ i (idx_main_v29 i) rfl]

theorem h4_eq (x0 : FVec Ideal Cert.KernelIdeal.S1x29 .f32) (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) (x9 : FVec Ideal Cert.KernelIdeal.S128x128 .f32)
    (x10 : FVec Ideal Cert.KernelIdeal.S128 .f32) :
    kLrelu (kDense4 (val_main_v26 (F := Ideal) x0 x3 x4 x5 x6 x7 x8) x9 x10)
      = val_main_v35 (F := Ideal) x0 x3 x4 x5 x6 x7 x8 x9 x10 := by
  rw [dense4_eq]
  unfold kLrelu val_main_v35 val_main_v32 val_main_v34 val_main_v31 val_main_v33 val_main_cst_5 val_main_cst_6
  rw [splat_eq, splat_eq]

/-! ## The gates' pre-activation -/

theorem gates_eq (x0 : FVec Ideal Cert.KernelIdeal.S1x29 .f32) (x1 : FVec Ideal Cert.KernelIdeal.S1x128 .f32)
    (x3 : FVec Ideal Cert.KernelIdeal.S256x29 .f32)
    (x4 : FVec Ideal Cert.KernelIdeal.S256 .f32) (x5 : FVec Ideal Cert.KernelIdeal.S256x256 .f32)
    (x6 : FVec Ideal Cert.KernelIdeal.S256 .f32) (x7 : FVec Ideal Cert.KernelIdeal.S128x256 .f32)
    (x8 : FVec Ideal Cert.KernelIdeal.S128 .f32) (x9 : FVec Ideal Cert.KernelIdeal.S128x128 .f32)
    (x10 : FVec Ideal Cert.KernelIdeal.S128 .f32) (x11 : FVec Ideal Cert.KernelIdeal.S512x128 .f32)
    (x12 : FVec Ideal Cert.KernelIdeal.S512 .f32) (x13 : FVec Ideal Cert.KernelIdeal.S512x128 .f32)
    (x14 : FVec Ideal Cert.KernelIdeal.S512 .f32) :
    kGates (val_main_v35 (F := Ideal) x0 x3 x4 x5 x6 x7 x8 x9 x10) x11 x12 x1 x13 x14
      = val_main_v44 (F := Ideal) x0 x1 x3 x4 x5 x6 x7 x8 x9 x10 x11 x12 x13 x14 := by
  funext i
  rw [val_main_v44_apply, val_main_v42_apply, val_main_v39_apply, val_main_v37_apply, val_main_v41_apply,
    val_main_v38_apply, val_main_v43_apply]
  simp only [val_main_v36_apply, val_main_v40_apply]
  show FloatOps.addf
      (FloatOps.addf (matmul kd128to512 (some .fp32) (val_main_v35 (F := Ideal) x0 x3 x4 x5 x6 x7 x8 x9 x10) x11
          (constant Cert.KernelIdeal.S1x512 .f32 0x00000000#32) i)
        (shapeCast Cert.KernelIdeal.S1x512 x12 Cert.KernelIdeal.Facts₀.shapeCasts_S512_S1x512 i))
      (FloatOps.addf (matmul kd128to512 (some .fp32) x1 x13 (constant Cert.KernelIdeal.S1x512 .f32 0x00000000#32) i)
        (shapeCast Cert.KernelIdeal.S1x512 x14 Cert.KernelIdeal.Facts₀.shapeCasts_S512_S1x512 i)) = _
  rw [mm128to512_apply, mm128to512_apply_rec, bias_row x12 _ i (idx_main_v38 i) rfl,
    bias_row x14 _ i (idx_main_v43 i) rfl]
  simp only [Ideal.addf_def]
  exact (add_assoc _ _ _).symm

end Cert.Bridge

end
-- ==== Proof.Cell.lean ====
/-
  The LSTM cell, and the kernel's second payload.

  From the 512 gate pre-activations g the cell takes four slices of width 128, in the order input, forget, cell, output,
  and computes  c' = σ(g_f) · c + σ(g_i) · tanh(g_c)  and  h' = σ(g_o) · tanh(c').  The kernel applies the one operation
  "logistic" for σ; the reference spells σ(x) as 1 / (1 + exp(-x)) with a broadcast constant whose bit pattern is that of
  1.0.  Over the extended reals the logistic IS the expression 1 / (1 + exp(-x)) (by definition, at every value, the
  infinite ones included), the pattern denotes the real number 1, tanh is one function on both sides, and the slices,
  products and sums are the same entry by entry: the two cells are one function of (g, c).

  The kernel's second payload is its fourth dense layer, the gates and the cell composed; with the layers equal to the
  reference's stages (Dense) it is the reference's new hidden state.
-/
import proofs.«141714_j38903813767521_2_alg».proof.Proof.Dense
import Idealize.ShloMosaic.PureOps.IdealRules

noncomputable section

namespace Cert.Bridge

open Idealize.ShloMosaic Idealize.ShloMosaic.TcCoe Cert.ReferenceIdeal.ReadP Cert.Lib

/-- The bit pattern of 1.0 denotes the real number 1. -/
theorem one_eq : Scalar.ofBits (F := Ideal) .f32 0x3F800000#32 = (1 : EReal) :=
  IdealRules.sign_bit.ideal_onePat .f32

/-- The cell in the kernel's spelling: the new hidden state from the gate pre-activations and the old cell state. -/
def kCell (g : FVec Ideal Cert.KernelIdeal.S1x512 .f32) (cx : FVec Ideal Cert.KernelIdeal.S1x128 .f32) :
    FVec Ideal Cert.KernelIdeal.S1x128 .f32 :=
  mulf (logistic (extractStridedSlice Cert.KernelIdeal.S1x128 ![0, 384] g Cert.KernelIdeal.Facts₀.slices_S1x512_o0_384_S1x128))
    (tanh (addf
      (mulf (logistic (extractStridedSlice Cert.KernelIdeal.S1x128 ![0, 128] g Cert.KernelIdeal.Facts₀.slices_S1x512_o0_128_S1x128)) cx)
      (mulf (logistic (extractStridedSlice Cert.KernelIdeal.S1x128 ![0, 0] g Cert.KernelIdeal.Facts₀.slices_S1x512_o0_0_S1x128))
        (tanh (extractStridedSlice Cert.KernelIdeal.S1x128 ![0, 256] g Cert.KernelIdeal.Facts₀.slices_S1x512_o0_256_S1x128)))))

/-- The kernel's second payload is its fourth layer, the gates and the cell composed. -/
theorem pay4_comp (x1 x2 h3 : FVec Ideal Cert.KernelIdeal.S1x128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32) :
    Cert.KernelIdeal.Gen.k0_pay4 (F := Ideal) x1 x2 h3 x9 x10 x11 x12 x13 x14
      = kCell (kGates (kLrelu (kDense4 h3 x9 x10)) x11 x12 x1 x13 x14) x2 := rfl

/-- The kernel's cell, applied to the reference's gate pre-activations, is the reference's new hidden state. -/
theorem cell_eq (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32) :
    kCell (val_main_v44 (F := Ideal) x0 x1 x3 x4 x5 x6 x7 x8 x9 x10 x11 x12 x13 x14) x2
      = val_main_v72 (F := Ideal) x0 x1 x2 x3 x4 x5 x6 x7 x8 x9 x10 x11 x12 x13 x14 := by
  unfold val_main_v72 val_main_v71 val_main_v70 val_main_v69 val_main_v68 val_main_v67 val_main_v66 val_main_v65
    val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47
    val_main_v46 val_main_v45 val_main_cst_7 val_main_cst_8 val_main_cst_9 val_main_cst_10 val_main_cst_11 val_main_cst_12
  generalize val_main_v44 (F := Ideal) x0 x1 x3 x4 x5 x6 x7 x8 x9 x10 x11 x12 x13 x14 = g
  rw [splat_eq]
  funext i
  simp only [kCell, mulf, addf, logistic, tanh, Host.divf, Host.exp, Host.negf, Host.tanh, broadcast, one_eq]
  rfl

/-- The kernel's second payload, applied to the reference's third hidden layer, is the reference's new hidden state. -/
theorem pay4_eq (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32) :
    Cert.KernelIdeal.Gen.k0_pay4 (F := Ideal) x1 x2 (val_main_v26 (F := Ideal) x0 x3 x4 x5 x6 x7 x8) x9 x10 x11 x12 x13 x14
      = val_main_v72 (F := Ideal) x0 x1 x2 x3 x4 x5 x6 x7 x8 x9 x10 x11 x12 x13 x14 := by
  rw [pay4_comp, h4_eq, gates_eq, cell_eq]

end Cert.Bridge

end
-- ==== Proof.Heads.lean ====
/-
  The three output heads, and the kernel's last three payloads.

  Each head is an affine map of the new hidden state h : [1, 128]:  head r = ∑ k, h (0, k) · W (r, k) + b r.
  The kernel computes it without a matrix product: it broadcasts h over W's rows, multiplies entry by entry, sums each
  row over its 128 lanes (from a zero initial value) into a vector [out], gives that vector a trailing unit axis and adds
  the bias, itself a vector given a trailing unit axis before the kernel runs; its results are columns [out, 1].  The
  reference computes h · Wᵀ as a dot_general with the transposed weights and adds the bias broadcast along the second
  axis; its results are rows [1, out].  After the final reshapes to [out] (to a scalar for the value head) both hold, at
  r, the sum above: the same products in the same order of factors, so no law is needed for the affine part.

  The actor head then applies soft-sign, a / (1 + |a|) in the kernel and a / (|a| + 1) in the reference: equal by
  commutativity of addition of extended reals, at every value.
-/
import proofs.«141714_j38903813767521_2_alg».proof.Proof.Cell

noncomputable section

namespace Cert.Bridge

open Idealize.ShloMosaic Idealize.ShloMosaic.TcCoe Idealize.ShloMosaic.ValueIdx Cert.ReferenceIdeal.ReadP Cert.Lib

/-! ## The heads in the kernel's spelling -/

/-- The value head: h times the one weight row, summed over the lanes, plus the bias, as a [1, 1] block. -/
def kValueHead (h w : FVec Ideal Cert.KernelIdeal.S1x128 .f32) (b : FVec Ideal Cert.KernelIdeal.S1x1 .f32) :
    FVec Ideal Cert.KernelIdeal.S1x1 .f32 :=
  addf (shapeCast Cert.KernelIdeal.S1x1
      (multiReduction .add [1] Cert.KernelIdeal.S1 (mulf h w) 0x00000000#32 Cert.KernelIdeal.Facts₀.reduces_S1x128_S1
        (.inl rfl) rfl) Cert.KernelIdeal.Facts₀.shapeCasts_S1_S1x1)
    (shapeCast Cert.KernelIdeal.S1x1 b Cert.KernelIdeal.Facts₀.shapeCasts_S1x1_S1x1)

/-- An actor head's affine part: h broadcast over the three weight rows, times them, summed over the lanes, plus the
    bias, as a [3, 1] block. -/
def kHeadLin (h : FVec Ideal Cert.KernelIdeal.S1x128 .f32) (w : FVec Ideal Cert.KernelIdeal.S3x128 .f32)
    (b : FVec Ideal Cert.KernelIdeal.S3x1 .f32) : FVec Ideal Cert.KernelIdeal.S3x1 .f32 :=
  addf (shapeCast Cert.KernelIdeal.S3x1
      (multiReduction .add [1] Cert.KernelIdeal.S3
        (mulf (broadcastTo Cert.KernelIdeal.S3x128 h Cert.KernelIdeal.Facts₀.broadcasts_S1x128_S3x128) w) 0x00000000#32
        Cert.KernelIdeal.Facts₀.reduces_S3x128_S3 (.inl rfl) rfl) Cert.KernelIdeal.Facts₀.shapeCasts_S3_S3x1)
    (shapeCast Cert.KernelIdeal.S3x1 b Cert.KernelIdeal.Facts₀.shapeCasts_S3x1_S3x1)

/-- Soft-sign in the kernel's spelling: a / (1 + |a|). -/
def kSoftSign (v : FVec Ideal Cert.KernelIdeal.S3x1 .f32) : FVec Ideal Cert.KernelIdeal.S3x1 .f32 :=
  divf v (addf (broadcast Cert.KernelIdeal.S3x1 (Scalar.ofBits .f32 0x3F800000#32)) (absf v))

theorem pay5_comp (x1 x2 h3 : FVec Ideal Cert.KernelIdeal.S1x128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x15 : FVec Ideal Cert.KernelIdeal.S1x128 .f32) (b : FVec Ideal Cert.KernelIdeal.S1x1 .f32) :
    Cert.KernelIdeal.Gen.k0_pay5 (F := Ideal) x1 x2 h3 x9 x10 x11 x12 x13 x14 x15 b
      = kValueHead (Cert.KernelIdeal.Gen.k0_pay4 (F := Ideal) x1 x2 h3 x9 x10 x11 x12 x13 x14) x15 b := rfl

theorem pay1_comp (h : FVec Ideal Cert.KernelIdeal.S1x128 .f32) (w : FVec Ideal Cert.KernelIdeal.S3x128 .f32)
    (b : FVec Ideal Cert.KernelIdeal.S3x1 .f32) :
    Cert.KernelIdeal.Gen.k0_pay1 (F := Ideal) h w b = kSoftSign (kHeadLin h w b) := rfl

theorem pay2_comp (h : FVec Ideal Cert.KernelIdeal.S1x128 .f32) (w : FVec Ideal Cert.KernelIdeal.S3x128 .f32)
    (b : FVec Ideal Cert.KernelIdeal.S3x1 .f32) :
    Cert.KernelIdeal.Gen.k0_pay2 (F := Ideal) h w b = kHeadLin h w b := rfl

/-! ## The heads at an entry -/

/-- The value head's one entry: the hidden state's inner product with the weight row, plus the bias. -/
theorem valueHead_at (h w : FVec Ideal Cert.KernelIdeal.S1x128 .f32) (b : FVec Ideal Cert.KernelIdeal.S1 .f32) :
    kValueHead h w (shapeCast Cert.KernelIdeal.S1x1 b Cert.KernelIdeal.Facts₀.shapeCasts_S1_S1x1)
        (ix2 (0 : Fin 1) (0 : Fin 1))
      = (∑ k : Fin 128, h (ix2 (0 : Fin 1) k) * w (ix2 (0 : Fin 1) k)) + b (ix1 (0 : Fin 1)) := by
  show FloatOps.addf
      (shapeCast Cert.KernelIdeal.S1x1
        (multiReduction .add [1] Cert.KernelIdeal.S1 (mulf h w) 0x00000000#32 Cert.KernelIdeal.Facts₀.reduces_S1x128_S1
          (.inl rfl) rfl) Cert.KernelIdeal.Facts₀.shapeCasts_S1_S1x1 (ix2 (0 : Fin 1) (0 : Fin 1)))
      (shapeCast Cert.KernelIdeal.S1x1
        (shapeCast Cert.KernelIdeal.S1x1 b Cert.KernelIdeal.Facts₀.shapeCasts_S1_S1x1)
        Cert.KernelIdeal.Facts₀.shapeCasts_S1x1_S1x1 (ix2 (0 : Fin 1) (0 : Fin 1))) = _
  rw [shapeCast_self, col_of_vec (a := 1) b _ 0 0, col_of_vec (a := 1) _ _ 0 0]
  exact congrArg (· + b (ix1 (0 : Fin 1))) (lane_sum (a := 1) (mulf h w) _ _ _ 0)

/-- An actor head's affine part at row r: the hidden state's inner product with weight row r, plus the bias at r. -/
theorem headLin_at (h : FVec Ideal Cert.KernelIdeal.S1x128 .f32) (w : FVec Ideal Cert.KernelIdeal.S3x128 .f32)
    (b : FVec Ideal Cert.KernelIdeal.S3 .f32) (r : Fin 3) :
    kHeadLin h w (shapeCast Cert.KernelIdeal.S3x1 b Cert.KernelIdeal.Facts₀.shapeCasts_S3_S3x1) (ix2 r (0 : Fin 1))
      = (∑ k : Fin 128, h (ix2 (0 : Fin 1) k) * w (ix2 r k)) + b (ix1 r) := by
  show FloatOps.addf
      (shapeCast Cert.KernelIdeal.S3x1
        (multiReduction .add [1] Cert.KernelIdeal.S3
          (mulf (broadcastTo Cert.KernelIdeal.S3x128 h Cert.KernelIdeal.Facts₀.broadcasts_S1x128_S3x128) w) 0x00000000#32
          Cert.KernelIdeal.Facts₀.reduces_S3x128_S3 (.inl rfl) rfl) Cert.KernelIdeal.Facts₀.shapeCasts_S3_S3x1
        (ix2 r (0 : Fin 1)))
      (shapeCast Cert.KernelIdeal.S3x1
        (shapeCast Cert.KernelIdeal.S3x1 b Cert.KernelIdeal.Facts₀.shapeCasts_S3_S3x1)
        Cert.KernelIdeal.Facts₀.shapeCasts_S3x1_S3x1 (ix2 r (0 : Fin 1))) = _
  rw [shapeCast_self, col_of_vec (a := 3) b _ r 0, col_of_vec (a := 3) _ _ r 0]
  refine (congrArg (· + b (ix1 r)) (lane_sum (a := 3)
    (mulf (broadcastTo Cert.KernelIdeal.S3x128 h Cert.KernelIdeal.Facts₀.broadcasts_S1x128_S3x128) w) _ _ _ r)).trans ?_
  refine congrArg (· + b (ix1 r)) (Finset.sum_congr rfl fun k _ => ?_)
  show broadcastTo Cert.KernelIdeal.S3x128 h Cert.KernelIdeal.Facts₀.broadcasts_S1x128_S3x128 (ix2 r k) * w (ix2 r k) = _
  rw [broadcastTo_1b_ab_apply (a := 3) (b := 128) h _ r k]

/-! ## The reference's heads at an entry -/

/-- The reference's value head, before its reshape to a scalar, at its one entry. -/
theorem refValue_at (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x15 : FVec Ideal Cert.KernelIdeal.S1x128 .f32) (x16 : FVec Ideal Cert.KernelIdeal.S1 .f32) :
    val_main_v76 (F := Ideal) x0 x1 x2 x3 x4 x5 x6 x7 x8 x9 x10 x11 x12 x13 x14 x15 x16 (ix2 (0 : Fin 1) (0 : Fin 1))
      = (∑ k : Fin 128, (val_main_v72 (F := Ideal) x0 x1 x2 x3 x4 x5 x6 x7 x8 x9 x10 x11 x12 x13 x14) (ix2 (0 : Fin 1) k) * x15 (ix2 (0 : Fin 1) k))
        + x16 (ix1 (0 : Fin 1)) := by
  rw [val_main_v76_apply, val_main_v74_apply, val_main_v75_apply]
  simp only [val_main_v73_apply]
  have e1 : ∀ k : Fin 128, lidx_main_v74 (ix2 (0 : Fin 1) (0 : Fin 1)) k = ix2 (0 : Fin 1) k := fun k =>
    funext fun a => by
      match a with
      | ⟨0, _⟩ => rfl
      | ⟨1, _⟩ => rfl
  have e2 : ∀ k : Fin 128, idx_main_v73 (ridx_main_v74 (ix2 (0 : Fin 1) (0 : Fin 1)) k) = ix2 (0 : Fin 1) k := fun k =>
    funext fun a => by
      match a with
      | ⟨0, _⟩ => rfl
      | ⟨1, _⟩ => rfl
  have e3 : idx_main_v75 (ix2 (0 : Fin 1) (0 : Fin 1)) = ix1 (0 : Fin 1) := funext fun a => by
    match a with
    | ⟨0, _⟩ => rfl
  simp only [e1, e2, e3]
  rfl

/-- The reference's actor head before soft-sign, at the entry its final reshape reads for row r. -/
theorem refActorLin_at (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x17 : FVec Ideal Cert.KernelIdeal.S3x128 .f32) (x18 : FVec Ideal Cert.KernelIdeal.S3 .f32) (r : Fin 3) :
    val_main_v81 (F := Ideal) x0 x1 x2 x3 x4 x5 x6 x7 x8 x9 x10 x11 x12 x13 x14 x17 x18 (idx_main_v83 (ix1 r))
      = (∑ k : Fin 128, (val_main_v72 (F := Ideal) x0 x1 x2 x3 x4 x5 x6 x7 x8 x9 x10 x11 x12 x13 x14) (ix2 (0 : Fin 1) k) * x17 (ix2 r k)) + x18 (ix1 r) := by
  have hr : r.val < 3 := r.isLt
  rw [val_main_v81_apply, val_main_v79_apply, val_main_v80_apply]
  simp only [val_main_v78_apply]
  have e1 : ∀ k : Fin 128, lidx_main_v79 (idx_main_v83 (ix1 r)) k = ix2 (0 : Fin 1) k := fun k =>
    funext fun a => by
      match a with
      | ⟨0, _⟩ => rfl
      | ⟨1, _⟩ => rfl
  have e2 : ∀ k : Fin 128, idx_main_v78 (ridx_main_v79 (idx_main_v83 (ix1 r)) k) = ix2 r k := fun k =>
    funext fun a => Fin.ext (by
      match a with
      | ⟨0, _⟩ => show r.val % 3 = r.val; omega
      | ⟨1, _⟩ => rfl)
  have e3 : idx_main_v80 (idx_main_v83 (ix1 r)) = ix1 r := funext fun a => Fin.ext (by
    match a with
    | ⟨0, _⟩ => show r.val % 3 = r.val; omega)
  simp only [e1, e2, e3]
  rfl

/-- The reference's second actor head, at the entry its final reshape reads for row r. -/
theorem refActor2_at (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x19 : FVec Ideal Cert.KernelIdeal.S3x128 .f32) (x20 : FVec Ideal Cert.KernelIdeal.S3 .f32) (r : Fin 3) :
    val_main_v87 (F := Ideal) x0 x1 x2 x3 x4 x5 x6 x7 x8 x9 x10 x11 x12 x13 x14 x19 x20 (idx_main_v88 (ix1 r))
      = (∑ k : Fin 128, (val_main_v72 (F := Ideal) x0 x1 x2 x3 x4 x5 x6 x7 x8 x9 x10 x11 x12 x13 x14) (ix2 (0 : Fin 1) k) * x19 (ix2 r k)) + x20 (ix1 r) := by
  have hr : r.val < 3 := r.isLt
  rw [val_main_v87_apply, val_main_v85_apply, val_main_v86_apply]
  simp only [val_main_v84_apply]
  have e1 : ∀ k : Fin 128, lidx_main_v85 (idx_main_v88 (ix1 r)) k = ix2 (0 : Fin 1) k := fun k =>
    funext fun a => by
      match a with
      | ⟨0, _⟩ => rfl
      | ⟨1, _⟩ => rfl
  have e2 : ∀ k : Fin 128, idx_main_v84 (ridx_main_v85 (idx_main_v88 (ix1 r)) k) = ix2 r k := fun k =>
    funext fun a => Fin.ext (by
      match a with
      | ⟨0, _⟩ => show r.val % 3 = r.val; omega
      | ⟨1, _⟩ => rfl)
  have e3 : idx_main_v86 (idx_main_v88 (ix1 r)) = ix1 r := funext fun a => Fin.ext (by
    match a with
    | ⟨0, _⟩ => show r.val % 3 = r.val; omega)
  simp only [e1, e2, e3]
  rfl

/-! ## The three results -/

/-- The kernel's value block, over the reference's hidden state, is the reference's value head before its reshape. -/
theorem valueHead_eq (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x15 : FVec Ideal Cert.KernelIdeal.S1x128 .f32) (x16 : FVec Ideal Cert.KernelIdeal.S1 .f32) :
    kValueHead (val_main_v72 (F := Ideal) x0 x1 x2 x3 x4 x5 x6 x7 x8 x9 x10 x11 x12 x13 x14) x15
        (shapeCast Cert.KernelIdeal.S1x1 x16 Cert.KernelIdeal.Facts₀.shapeCasts_S1_S1x1)
      = val_main_v76 (F := Ideal) x0 x1 x2 x3 x4 x5 x6 x7 x8 x9 x10 x11 x12 x13 x14 x15 x16 := by
  funext i
  obtain ⟨u, v, rfl⟩ : ∃ (u : Fin 1) (v : Fin 1), i = ix2 u v := ⟨i 0, i 1, eq_ix2 i⟩
  obtain rfl : u = 0 := Subsingleton.elim u 0
  obtain rfl : v = 0 := Subsingleton.elim v 0
  rw [valueHead_at, refValue_at]

/-- THE VALUE: the kernel's first result, reshaped to a scalar, is the reference's. -/
theorem value_result (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x15 : FVec Ideal Cert.KernelIdeal.S1x128 .f32) (x16 : FVec Ideal Cert.KernelIdeal.S1 .f32) :
    shapeCast Cert.KernelIdeal.S_
        (Cert.KernelIdeal.Gen.k0_pay5 (F := Ideal) x1 x2 (Cert.KernelIdeal.Gen.k0_pay3 (F := Ideal) x0 x3 x4 x5 x6 x7 x8)
          x9 x10 x11 x12 x13 x14 x15 (shapeCast Cert.KernelIdeal.S1x1 x16 Cert.KernelIdeal.Facts₀.shapeCasts_S1_S1x1))
        Cert.KernelIdeal.Facts₀.shapeCasts_S1x1_S_
      = val_main_v77 (F := Ideal) x0 x1 x2 x3 x4 x5 x6 x7 x8 x9 x10 x11 x12 x13 x14 x15 x16 := by
  rw [pay5_comp, pay3_eq, pay4_eq, valueHead_eq]
  rfl

/-- THE ACTOR: the kernel's second result, its column reshaped to a vector, is the reference's row reshaped to a vector. -/
theorem actor_result (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x17 : FVec Ideal Cert.KernelIdeal.S3x128 .f32) (x18 : FVec Ideal Cert.KernelIdeal.S3 .f32) :
    shapeCast Cert.KernelIdeal.S3
        (Cert.KernelIdeal.Gen.k0_pay1 (F := Ideal)
          (Cert.KernelIdeal.Gen.k0_pay4 (F := Ideal) x1 x2 (Cert.KernelIdeal.Gen.k0_pay3 (F := Ideal) x0 x3 x4 x5 x6 x7 x8)
            x9 x10 x11 x12 x13 x14)
          x17 (shapeCast Cert.KernelIdeal.S3x1 x18 Cert.KernelIdeal.Facts₀.shapeCasts_S3_S3x1))
        Cert.KernelIdeal.Facts₀.shapeCasts_S3x1_S3
      = val_main_v83 (F := Ideal) x0 x1 x2 x3 x4 x5 x6 x7 x8 x9 x10 x11 x12 x13 x14 x17 x18 := by
  rw [pay1_comp, pay3_eq, pay4_eq]
  funext i
  obtain ⟨r, rfl⟩ : ∃ r : Fin 3, i = ix1 r := ⟨i 0, eq_ix1 i⟩
  rw [vec_of_col (a := 3) _ _ r, val_main_v83_apply, val_main_v82_apply, val_main_call4_v2_apply,
    val_main_call4_v0_apply, val_main_call4_v1_apply, val_main_call4_cst_apply, refActorLin_at]
  show FloatOps.divf
      (kHeadLin (val_main_v72 (F := Ideal) x0 x1 x2 x3 x4 x5 x6 x7 x8 x9 x10 x11 x12 x13 x14) x17
        (shapeCast Cert.KernelIdeal.S3x1 x18 Cert.KernelIdeal.Facts₀.shapeCasts_S3_S3x1) (ix2 r (0 : Fin 1)))
      (FloatOps.addf (Scalar.ofBits .f32 0x3F800000#32)
        (FloatOps.absf (kHeadLin (val_main_v72 (F := Ideal) x0 x1 x2 x3 x4 x5 x6 x7 x8 x9 x10 x11 x12 x13 x14) x17
          (shapeCast Cert.KernelIdeal.S3x1 x18 Cert.KernelIdeal.Facts₀.shapeCasts_S3_S3x1) (ix2 r (0 : Fin 1))))) = _
  rw [headLin_at]
  exact congrArg (Ideal.div _) (add_comm _ _)

/-- THE SECOND ACTOR: the kernel's third result is the reference's. -/
theorem actor2_result (x0 : FVec Ideal Cert.KernelIdeal.S1x29 .f32) (x1 x2 : FVec Ideal Cert.KernelIdeal.S1x128 .f32)
    (x3 : FVec Ideal Cert.KernelIdeal.S256x29 .f32) (x4 : FVec Ideal Cert.KernelIdeal.S256 .f32)
    (x5 : FVec Ideal Cert.KernelIdeal.S256x256 .f32) (x6 : FVec Ideal Cert.KernelIdeal.S256 .f32)
    (x7 : FVec Ideal Cert.KernelIdeal.S128x256 .f32) (x8 : FVec Ideal Cert.KernelIdeal.S128 .f32)
    (x9 : FVec Ideal Cert.KernelIdeal.S128x128 .f32) (x10 : FVec Ideal Cert.KernelIdeal.S128 .f32)
    (x11 : FVec Ideal Cert.KernelIdeal.S512x128 .f32) (x12 : FVec Ideal Cert.KernelIdeal.S512 .f32)
    (x13 : FVec Ideal Cert.KernelIdeal.S512x128 .f32) (x14 : FVec Ideal Cert.KernelIdeal.S512 .f32)
    (x19 : FVec Ideal Cert.KernelIdeal.S3x128 .f32) (x20 : FVec Ideal Cert.KernelIdeal.S3 .f32) :
    shapeCast Cert.KernelIdeal.S3
        (Cert.KernelIdeal.Gen.k0_pay2 (F := Ideal)
          (Cert.KernelIdeal.Gen.k0_pay4 (F := Ideal) x1 x2 (Cert.KernelIdeal.Gen.k0_pay3 (F := Ideal) x0 x3 x4 x5 x6 x7 x8)
            x9 x10 x11 x12 x13 x14)
          x19 (shapeCast Cert.KernelIdeal.S3x1 x20 Cert.KernelIdeal.Facts₀.shapeCasts_S3_S3x1))
        Cert.KernelIdeal.Facts₀.shapeCasts_S3x1_S3
      = val_main_v88 (F := Ideal) x0 x1 x2 x3 x4 x5 x6 x7 x8 x9 x10 x11 x12 x13 x14 x19 x20 := by
  rw [pay2_comp, pay3_eq, pay4_eq]
  funext i
  obtain ⟨r, rfl⟩ : ∃ r : Fin 3, i = ix1 r := ⟨i 0, eq_ix1 i⟩
  rw [vec_of_col (a := 3) _ _ r, val_main_v88_apply, refActor2_at, headLin_at]

end Cert.Bridge

end
-- ==== Proof.lean ====
/-
  The certificate: an actor-critic network with an LSTM cell, as one kernel against its jnp reference.

  Both programs map a state row x : [1, 29], a hidden row hx and a cell row cx : [1, 128] and the weights to three results:
  a scalar value, three actor entries after soft-sign, and three entries of a second actor head.  The network is four
  dense layers with LeakyReLU (slope 0.1), one LSTM cell step, and three affine heads of the new hidden state.

  Over the extended reals the two programs compute the same function of the arguments, at every value of the arguments
  (the precondition is not used by the value claim):
    * a dense layer's product is the same sum of products on both sides (a matrix product into a zero accumulator in the
      kernel, a dot_general with the transposed weights in the reference), and its bias the same entry;
    * the gates' pre-activations differ only in the grouping of a sum of four terms (associativity);
    * the logistic function of the kernel IS the reference's 1 / (1 + exp(-x)), whose constant denotes the real 1;
    * a head is the same sum of products, taken by a lane sum of a broadcast product in the kernel and by a dot_general
      in the reference; soft-sign differs by the order of the two summands of its denominator (commutativity);
    * the kernel's results are columns [out, 1] and the reference's rows [1, out]; both are reshaped to [out].
  The kernel's run is read off its frame run (every window's block is its whole array, and the one grid point's
  write-back covers each output array); the reference's run is the fold of its 107 host operations.  The kernel's
  idealization rewrote nothing, so the preservation claim is trivial; the three frame claims are the frame runs.
-/
import proofs.«141714_j38903813767521_2_alg».proof.Defs
import proofs.«141714_j38903813767521_2_alg».proof.Proof.Gen.Kernel
import proofs.«141714_j38903813767521_2_alg».proof.Proof.Gen.Kernel.Skeleton
import proofs.«141714_j38903813767521_2_alg».proof.Proof.Gen.Kernel.Launch
import proofs.«141714_j38903813767521_2_alg».proof.Proof.Gen.Kernel.Points
import proofs.«141714_j38903813767521_2_alg».proof.Proof.Gen.Kernel.Frame
import proofs.«141714_j38903813767521_2_alg».proof.Proof.Gen.KernelIdeal
import proofs.«141714_j38903813767521_2_alg».proof.Proof.Gen.KernelIdeal.Skeleton
import proofs.«141714_j38903813767521_2_alg».proof.Proof.Gen.KernelIdeal.Launch
import proofs.«141714_j38903813767521_2_alg».proof.Proof.Gen.KernelIdeal.Points
import proofs.«141714_j38903813767521_2_alg».proof.Proof.Gen.KernelIdeal.Frame
import proofs.«141714_j38903813767521_2_alg».proof.Proof.Gen.ReferenceIdeal
import proofs.«141714_j38903813767521_2_alg».proof.Proof.Gen.Pre_finite_inputs
import proofs.«141714_j38903813767521_2_alg».proof.Proof.KernelRun
import proofs.«141714_j38903813767521_2_alg».proof.Proof.RefRun
import proofs.«141714_j38903813767521_2_alg».proof.Proof.Heads
import Idealize.ShloMosaic.Adequacy
import Idealize.ShloMosaic.Init

noncomputable section

namespace Cert.Proof

open Idealize.ShloMosaic Idealize.SL.Sem

/-- The kernel as printed runs, faults nowhere and leaves its arguments unchanged: its frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the three results dropped. -/
theorem frame_referenceIdeal : Cert.frame_ReferenceIdeal := fun m ρ _ =>
  (θ_run Cert.ReferenceIdeal.defs _ _).mono (fun _ h c => (h c).2.2.2)
    (Cert.ReferenceIdeal.RefValue.run (F := Ideal) m ρ)

/-- The idealization rewrote no operation. -/
theorem preserves : Cert.preserves_Kernel_KernelIdeal := trivial

set_option maxHeartbeats 4000000 in
/-- From memories agreeing on the arguments both idealized programs run, and their three results are equal: each
    result of the kernel is its payload of the arguments reshaped, each result of the reference its last stage of the
    arguments, and payload and stage are one function (the three result theorems). -/
theorem algebraic : Cert.algebraic_KernelIdeal_ReferenceIdeal := by
  intro m ρ m' ρ' _ hagree
  refine ⟨_, _, _, Cert.KernelIdeal.RunValue.run (F := Ideal) m ρ, ?_⟩
  refine (θ_run Cert.ReferenceIdeal.defs _ _).mono (fun _ h c => ?_)
    (Cert.ReferenceIdeal.RefValue.run (F := Ideal) m' ρ')
  obtain ⟨hv, ha, ha2, hkeep⟩ := h c
  obtain ⟨e0, e1, e2, e3, e4, e5, e6, e7, e8, e9, e10, e11, e12, e13, e14, e15, e16, e17, e18, e19, e20⟩ := hagree c
  refine ⟨hv.trans ?_, ha.trans ?_, ha2.trans ?_, hkeep⟩
  · unfold Cert.ReferenceIdeal.RefValue.value Cert.KernelIdeal.RunValue.valueBlock
    rw [e0, e1, e2, e3, e4, e5, e6, e7, e8, e9, e10, e11, e12, e13, e14, e15, e16]
    exact (Cert.Bridge.value_result _ _ _ _ _ _ _ _ _ _ _ _ _ _ _ _ _).symm
  · unfold Cert.ReferenceIdeal.RefValue.actor Cert.KernelIdeal.RunValue.actorBlock Cert.KernelIdeal.RunValue.hidden
    rw [e0, e1, e2, e3, e4, e5, e6, e7, e8, e9, e10, e11, e12, e13, e14, e17, e18]
    exact (Cert.Bridge.actor_result _ _ _ _ _ _ _ _ _ _ _ _ _ _ _ _ _).symm
  · unfold Cert.ReferenceIdeal.RefValue.actor2 Cert.KernelIdeal.RunValue.actor2Block Cert.KernelIdeal.RunValue.hidden
    rw [e0, e1, e2, e3, e4, e5, e6, e7, e8, e9, e10, e11, e12, e13, e14, e19, e20]
    exact (Cert.Bridge.actor2_result _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
